-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16384x64 .f32) (main_arg1 : FVec F S16384x16384 .f32) (main_arg2 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16384x64 : Shape := ⟨2, ![16384, 64]⟩
abbrev S16384x16384 : Shape := ⟨2, ![16384, 16384]⟩
abbrev S64x64 : Shape := ⟨2, ![64, 64]⟩
abbrev S16384x1 : Shape := ⟨2, ![16384, 1]⟩
abbrev S2048x2048 : Shape := ⟨2, ![2048, 2048]⟩
abbrev S2048x1 : Shape := ⟨2, ![2048, 1]⟩
abbrev S2048 : Shape := ⟨1, ![2048]⟩
abbrev S16384 : Shape := ⟨1, ![16384]⟩
abbrev S_ : Shape := ⟨0, ![]⟩
abbrev S2048x64 : Shape := ⟨2, ![2048, 64]⟩

abbrev nBuf : Space → Nat
  | .hbm => 16
  | .vmem => 17
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S16384x1, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .i1⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x2048, .f32⟩
  | .local _ .vmem, ⟨10, _⟩ => ⟨S2048x2048, .f32⟩
  | .local _ .vmem, ⟨11, _⟩ => ⟨S2048x64, .f32⟩
  | .local _ .vmem, ⟨12, _⟩ => ⟨S2048x64, .f32⟩
  | .local _ .vmem, ⟨13, _⟩ => ⟨S64x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  shapeCasts_S16384x1_S16384 : S16384x1.ShapeCasts S16384
  bcast_S_S16384 : S_.BroadcastsInDim S16384 (![] : Fin 0 → Fin S16384.rank)
  shapeCasts_S16384_S16384x1 : S16384.ShapeCasts S16384x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S16384x1.size a
  hwx1_0 : ∀ i : grid1.Coords, EltTy.bits .f32 = 32 ∨ (Rect.block (s := S16384x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S16384x16384.size a
  hwx1_2 : ∀ i : grid1.Coords, EltTy.bits .f32 = 32 ∨ (Rect.block (s := S16384x16384) S2048x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S16384x64.size a
  hwx1_5 : ∀ i : grid1.Coords, EltTy.bits .f32 = 32 ∨ (Rect.block (s := S16384x64) S2048x64.size (cc1_transform_5 i) (hinb1_5 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v6) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .i1⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x16384, .f32⟩
  | .hbm, ⟨15, _⟩ => ⟨S16384x16384, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S16384x64, .f32⟩
  | .hbm, ⟨20, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.HandKernel.R0Base.lean ====
/-
  The degree kernel (the first of the two kernel regions), what its three cases share.

  The grid has 8 × 8 points; point `t` has row band `t / 8` and column band `j = t % 8`. The body clears its
  accumulator when `j = 0`, adds the row sums of the current 2048 × 2048 block of the adjacency matrix to it at every
  point, and copies the accumulator into the output block when `j = 7`. So a point is in one of three cases:
  A (`j = 0`: clear, then add), B (`0 < j < 7`: add), C (`j = 7`: add, then copy out). Here: the two conditions in
  closed form over the grid, where the output window is left untouched and not written back (cases A and B) and
  where it is stored (case C), the memrefs the body is called with, and the block of a window read off the contents
  `V` the region is entered with.
-/
import proofs.«112918_j11965778887252_1_alg».proof.Proof.Gen.Kernel.Launch
import proofs.«112918_j11965778887252_1_alg».proof.Proof.Gen.Kernel.Skeleton
import proofs.«112918_j11965778887252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the first column band": the condition under which the accumulator is cleared. -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column band": the condition under which the accumulator is copied to the output block. -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input window is never idle. -/
theorem liveAt0_0 : ∀ t : Fin cfg0.N, cfg0.idle 0 (grid0.coords t) = false := by decide +kernel
/-- In case A nothing is stored into the output window, -/
theorem idleAt0_1_A : ∀ t : Fin cfg0.N, cond0_0 (grid0.coords t) → ¬cond0_1 (grid0.coords t) → cfg0.idle 1 (grid0.coords t) = true := by decide +kernel
/-- and its block is not written back there. -/
theorem noFlush0_1_A : ∀ t : Fin cfg0.N, cond0_0 (grid0.coords t) → ¬cond0_1 (grid0.coords t) → (cfg0.win 1).flush t = false := by decide +kernel
/-- The same in case B. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- In case C the output window is stored. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S2048x1 .f32 := (Memref.whole cc0_stg1_0 : Memref sig .tc .vmem S2048x1 .f32).view
/-- Each window's current staging memref at point `t`, and its wholeness. -/
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The accumulator: a whole scoped buffer of the kernel's own, -/
abbrev scM0_0 : Memref sig .tc .vmem S2048x1 .f32 := Memref.whole cc0_scratch0
/-- and the view through which what it holds is stated. -/
abbrev VS0_0 : View sig .tc .vmem S2048x1 .f32 := scM0_0.view

/-- The class invariant with the accumulator named: the accumulator at some contents, the other scoped buffers of the
    core at some contents, and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

section Blocks
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Hand

end
-- ==== Proof.HandKernel.R0RunA.lean ====
/-
  The degree kernel's body in case A (first column band, `t % 8 = 0`): the accumulator, whatever it held, is cleared
  and then receives the row sums of the current block; nothing is stored into the output block, which is handed back
  as it was found. The run is stated as a pair of piece lists — what the stores leave in the output's staging buffer
  (none) and in the accumulator — with the proof that the body, started on whole memrefs holding the input block, runs
  to a continuation that holds the input as it was and the accumulator with those pieces written.
-/
import proofs.«112918_j11965778887252_1_alg».proof.Proof.HandKernel.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the stores leave, and the body's triple. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.HandKernel.R0RunB.lean ====
/-
  The degree kernel's body in case B (a middle column band, `0 < t % 8 < 7`): the accumulator, holding what the point
  before left (`xs0`), receives its old contents plus the row sums of the current block; nothing is stored into the
  output block. Stated as in case A, the accumulator now entered at named contents.
-/
import proofs.«112918_j11965778887252_1_alg».proof.Proof.HandKernel.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the pieces the stores leave, and the body's triple. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.HandKernel.R0RunC.lean ====
/-
  The degree kernel's body in case C (last column band, `t % 8 = 7`): the accumulator, holding what the point before
  left (`xs0`), receives its old contents plus the row sums of the current block, and the result is then copied
  into the output block, whose staging buffer may hold anything on entry. Stated as the pieces the stores leave in
  the output's staging buffer and in the accumulator, with the body's triple.
-/
import proofs.«112918_j11965778887252_1_alg».proof.Proof.HandKernel.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the pieces the stores leave, and the body's triple. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.HandKernel.R0.lean ====
/-
  The degree kernel over the whole grid: what its output block and its accumulator hold after every point, the
  invariant that carries the accumulator from one point to the next, and the obligation the body owes at each point.

  After the body at point `t` the accumulator holds the row sums of the blocks of the current row band seen so far
  (it is cleared when `t % 8 = 0`), and at the last column band (`t % 8 = 7`) the output block receives a copy. This
  module does not compute those sums: it names what each case's stores leave (the pieces the runs found, read back)
  and chains the cases by recursion on the point; the arithmetic is read off these names elsewhere.
-/
import proofs.«112918_j11965778887252_1_alg».proof.Proof.HandKernel.R0RunA
import proofs.«112918_j11965778887252_1_alg».proof.Proof.HandKernel.R0RunB
import proofs.«112918_j11965778887252_1_alg».proof.Proof.HandKernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window: a placeholder nothing consults (the window is neither written back
    nor read at the next point there). -/
def out0_A_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) : Vec F S2048x1 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- What case A leaves in the accumulator. -/
def sout0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) : Vec F S2048x1 .f32 :=
  VS0_0.read (Elt F) (VS0_0.writes (Elt F) VS0_0.junk (kernelRun0_A c i arg2 harg2 arg3 harg3 arg4 harg4 hc0 hc1 x0).2.1)

/-- Case B stores nothing into the output window either. -/
def out0_B_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

/-- Case B's store into the accumulator covers it. -/
theorem scover0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- What case B leaves in the accumulator. -/
def sout0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- Case C's store into the output window covers its block. -/
theorem cover0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- What case C leaves in the output window's staging buffer. -/
def out0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

/-- Case C's store into the accumulator covers it. -/
theorem scover0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- What case C leaves in the accumulator. -/
def sout0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

section Region
variable (V : (c : Dev nD) → (b : Ref sig .tc) → Buf (Elt F) ((c : Thread nD τ).loc b))

/-! ## What the output block and the accumulator hold after each point -/

/-- THE ACCUMULATION: after the body at position `n`, the pair (output window's staging buffer, accumulator): the case
    the closed forms select at `n`, run on the point's input block, the accumulator entered at what position `n - 1` left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point of case A. -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the second kernel's staging buffers and accumulator), each at some contents:
    the degree kernel never touches them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant, the accumulator split from the other scoped buffers. -/
theorem PhiA0_eq' (c : Dev nD) :
    (Pipeline.ΦA spec0 c : sProp 𝕄)
      = iprop(iprop((∃ d, owns (c : Thread nD τ) scM0_0 fullShare d) ∗ others0 (F := F) c) ∗ (∃ r, prngReg c r)) :=
  PhiA0_eq c

/-- The invariant before position `n`: before the first point the class's (the accumulator at anything); afterwards
    the accumulator at what the point before left in it, the other scoped buffers and the generator register at
    something. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The degree kernel's proof data on core `c`: the arrays as the region finds them (`V`); after the body at point
    `t` the input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq']
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
      · rw [PhiS0_castSucc V c t, PhiS0_pos V c _ _ hz]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _)
            iexact Hrest
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region

end Cert.Kernel.Hand

end
-- ==== Proof.HandKernel.R1Base.lean ====
/- Region 1 (the second kernel region, pipeline 1): what the three per-case runs of its body share. The windows'
   blocks read off the region-entry contents; the body's two branch conditions in closed form over the grid
   (the accumulator is reset where the inner coordinate is 0, the output block is stored where it is 7); where the
   output window is idle; the staging and scratch memrefs the body is called with; the region's invariant with the
   carried accumulator singled out. -/
import proofs.«112918_j11965778887252_1_alg».proof.Proof.Gen.Kernel.Launch
import proofs.«112918_j11965778887252_1_alg».proof.Proof.Gen.Kernel.Skeleton
import proofs.«112918_j11965778887252_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the accumulator's reset), from the grid coordinates: the inner
    coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the output block's store): the inner coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (reset, no output store) output window 5 is idle. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B (no reset, no output store) output window 5 is idle. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C (no reset, output store) output window 5 is live. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter). -/
abbrev VO1_5 : View sig .tc .vmem S2048x64 .f32 := (Memref.whole cc1_stg5_0 : Memref sig .tc .vmem S2048x64 .f32).view
/-- Each window's current staging memref at point `t`, and its wholeness. -/
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The scratch operand: a whole scoped buffer of the kernel's own, the accumulator carried between points. -/
abbrev scM1_0 : Memref sig .tc .vmem S2048x64 .f32 := Memref.whole cc1_scratch0
/-- The accumulator as a view: what it holds is stated through it. -/
abbrev VS1_0 : View sig .tc .vmem S2048x64 .f32 := scM1_0.view

/-! ## The region's invariant, the accumulator singled out -/

/-- The core's scoped buffers that region 1 neither stages nor uses (the other region's staging buffers and its
    scratch), each whole at some contents, beside `P`. -/
def oth1 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ P)

/-- What stands beside the untouched buffers may be weakened. -/
theorem oth1_mono (c : Dev nD) {P Q : sProp 𝕄} (h : P ⊢ Q) : oth1 (F := F) c P ⊢ oth1 (F := F) c Q := by
  unfold oth1
  iintro ⟨H0, H1, H2, H3, H4, HP⟩
  isplitl [H0]; · iexact H0
  isplitl [H1]; · iexact H1
  isplitl [H2]; · iexact H2
  isplitl [H3]; · iexact H3
  isplitl [H4]; · iexact H4
  iapply h; iexact HP

/-- The class's invariant (the scoped rest at anything, the generator register at some state) with the accumulator
    as a memref owned at some contents: what the body obligation hands the run and takes back. -/
theorem PhiA1_eq (c : Dev nD) :
    (Pipeline.ΦA spec1 c : sProp 𝕄)
      = iprop(oth1 c iprop(∃ d, owns (c : Thread nD τ) scM1_0 fullShare d) ∗ (∃ r, prngReg c r)) := by
  unfold Pipeline.ΦA oth1; rw [scopedRest1_eq]; simp only [scM1_0, owns_whole]; try rfl

end Cert.Kernel.Hand

end
-- ==== Proof.HandKernel.R1RunA.lean ====
/- Region 1, case A of its body's two conditionals: the accumulator is reset (inner coordinate 0) and the output block is not stored. The whole-body run on any whole
   memrefs, as a subtype: the pieces each written buffer ends with are the witness, found by running the body. -/
import proofs.«112918_j11965778887252_1_alg».proof.Proof.HandKernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case A
    (the accumulator is reset (inner coordinate 0) and the output block is not stored), with the proof that on whole memrefs — the five inputs' at their contents,
    the output's, which the case leaves alone, at contents `xi5` handed back untouched, the accumulator at anything —
    the body runs to the continuation holding the inputs' as they were, the accumulator with its pieces written. -/
noncomputable def kernelRun1_A (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.HandKernel.R1RunB.lean ====
/- Region 1, case B of its body's two conditionals: the accumulator is not reset and the output block is not stored (inner coordinate 1..6). The whole-body run on any whole
   memrefs, as a subtype: the pieces each written buffer ends with are the witness, found by running the body. -/
import proofs.«112918_j11965778887252_1_alg».proof.Proof.HandKernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case B
    (the accumulator is not reset and the output block is not stored (inner coordinate 1..6)), with the proof that on whole memrefs — the five inputs' at their contents,
    the output's, which the case leaves alone, at contents `xi5` handed back untouched, the accumulator at what the point before left (`xs0`) —
    the body runs to the continuation holding the inputs' as they were, the accumulator with its pieces written. -/
noncomputable def kernelRun1_B (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.HandKernel.R1RunC.lean ====
/- Region 1, case C of its body's two conditionals: the accumulator is not reset and the output block is stored (inner coordinate 7). The whole-body run on any whole
   memrefs, as a subtype: the pieces each written buffer ends with are the witness, found by running the body. -/
import proofs.«112918_j11965778887252_1_alg».proof.Proof.HandKernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case C
    (the accumulator is not reset and the output block is stored (inner coordinate 7)), with the proof that on whole memrefs — the five inputs' at their contents,
    the output's at anything, the accumulator at what the point before left (`xs0`) —
    the body runs to the continuation holding the inputs' as they were, the output's with its pieces written, the accumulator with its pieces written. -/
noncomputable def kernelRun1_C (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    Σ' (L5 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.HandKernel.R1.lean ====
/- Region 1 (the second kernel region, pipeline 1) at region-entry contents `V`: what the output's staging buffer and
   the carried accumulator hold per case and point by point, the pipeline's proof data, the body obligation at every
   point, and the invariant's two ends. -/
import proofs.«112918_j11965778887252_1_alg».proof.Proof.HandKernel.R1RunA
import proofs.«112918_j11965778887252_1_alg».proof.Proof.HandKernel.R1RunB
import proofs.«112918_j11965778887252_1_alg».proof.Proof.HandKernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## What each case leaves -/

/-- Case A stores nothing into output 5 (the window is idle at its points and not written back there): no pieces — a
    placeholder (junk read back) that nothing consults. -/
def out1_A_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) : Vec F S2048x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A resets the accumulator and adds this point's product: its pieces for the accumulator tile it, so they cover it. -/
theorem scover1_A_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) (y : S2048x64.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x64.size (by sl_kernel_rfl) y

/-- What case A leaves in the accumulator: its pieces read back over junk. -/
def sout1_A_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into output 5 (the window is idle at its points and not written back there): no pieces — a
    placeholder (junk read back) that nothing consults. -/
def out1_B_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B adds this point's product to the accumulator: its pieces for the accumulator tile it, so they cover it. -/
theorem scover1_B_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x64.size (by sl_kernel_rfl) y

/-- What case B leaves in the accumulator: its pieces read back over junk. -/
def sout1_B_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for output 5 tile its block (one whole store), so they cover it. -/
theorem cover1_C_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x64.size (by sl_kernel_rfl) y

/-- What case C leaves in output 5's staging buffer: its pieces read back over junk. -/
def out1_C_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C adds this point's product to the accumulator and stores the output block: its pieces for the accumulator tile it, so they cover it. -/
theorem scover1_C_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x64.size (by sl_kernel_rfl) y

/-- What case C leaves in the accumulator: its pieces read back over junk. -/
def sout1_C_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output and the accumulator hold after each point -/

/-- THE ACCUMULATION. What output 5's staging buffer and the accumulator hold after the body at position `n`: the case
    the closed forms select at `n`, run at the point's memrefs and input blocks, the accumulator read at what the
    position before left in it. An assignment of the conditions no point meets is no case. -/
def outsAt1 (c : Dev nD) : (n : ℕ) → n < cfg1.N → Vec F S2048x64 .f32 × Vec F S2048x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the rest at
    anything); afterwards the scoped rest with the accumulator at what the point before left in it, the other buffers
    at anything, and the generator register at some state. -/
def PhiS1 (c : Dev nD) : (n : ℕ) → n ≤ cfg1.N → sProp 𝕄
  | 0, _ => Pipeline.ΦA spec1 c
  | n + 1, hn => iprop(oth1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(oth1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(oth1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which case the point is in; so the
    run applies; the invariant hands the body the accumulator at what the point before left (at anything at the first
    point), the rest of the scoped buffers and the generator register pass through, and the accumulator is taken back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold oth1
        iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        unfold oth1
        iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      have hz : t.val ≠ 0 := by omega
      rw [PhiS1_castSucc V c t, PhiS1_pos V c _ _ hz]
      unfold oth1
      iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      unfold oth1
      iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold oth1
  iintro ⟨⟨Hb0, Hb1, Hb2, Hb3, Hb4, HS0⟩, Hg⟩
  isplitl [Hb0 Hb1 Hb2 Hb3 Hb4 HS0]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.HandKernel.Frame.lean ====
/-
  The whole program: two kernel regions with three stretches of host operations between them.

  The buffer contents are followed from the launch to the return: `Wb0` at launch (where the degree kernel is
  entered); `Wb1` after it (its output array at what its write-backs leave, everything else as entered); `Wb2`, `Wb3`,
  `Wb4` after each host stretch (the normalising vector computed from the degrees and laid out twice as a column);
  `Wb5` after the second kernel (its output array at what its write-backs leave). Each region is a segment that takes
  every unscoped buffer at one of these valuations to the next; the run of the five segments ends with every unscoped
  buffer at `Wb5`. Read at the three argument arrays, which nothing writes, that is the frame claim; read at the result
  array it names the program's value as the second kernel's final output array.
-/
import proofs.«112918_j11965778887252_1_alg».proof.Proof.HandKernel.R0
import proofs.«112918_j11965778887252_1_alg».proof.Proof.HandKernel.R1
import proofs.«112918_j11965778887252_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: where the degree kernel is entered. -/
abbrev Wb0 : Dev nD → Valuation τ sig (Elt F) := fun c b => (s₀ m ρ).mem ((c : Dev nD), b)
/-- The same read at the TensorCore's references. -/
abbrev Ve0 : (c : Dev nD) → (b : Ref sig .tc) → Buf (Elt F) ((c : Thread nD τ).loc b) := fun c b => Wb0 m ρ c b
/-- After the degree kernel: its arrays at what the pipeline leaves, every other buffer as entered. -/
def Wb1 (c : Dev nD) : Valuation τ sig (Elt F) :=
  Pipeline.withArrays spec0 c (Wb0 m ρ c) fun w => (dat0 (Ve0 m ρ) c).arrAt w cfg0.N
theorem Wb1_arr (c : Dev nD) (w : Fin cfg0.W) :
    Wb1 m ρ c (Proc.devRef .tc (Pipeline.arrRef spec0 w)) = (dat0 (Ve0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
theorem hF0 (c : Dev nD) (w : Fin cfg0.W) : (dat0 (Ve0 m ρ) c).arrAt w cfg0.N = Wb1 m ρ c (Pipeline.arrRef spec0 w) :=
  (Wb1_arr m ρ c w).symm
theorem hrest0 (c : Dev nD) : ∀ b, b ∉ Finset.univ.image (Pipeline.arrRef spec0) → Wb1 m ρ c b = Ve0 m ρ c b :=
  fun b hb => Wb1_of_ne m ρ c b fun w e => hb (Finset.mem_image.mpr ⟨w, Finset.mem_univ _, e⟩)

/-- After the three host stretches: the degrees reshaped to a vector, compared with zero and inverted; the select between
    the inverse square root and zero; the two column layouts of the result. -/
abbrev Wb2 : Dev nD → Valuation τ sig (Elt F) := fun c => StableHlo.after hostOps1 (Wb1 m ρ c)
abbrev Wb3 : Dev nD → Valuation τ sig (Elt F) := fun c => StableHlo.after hostOps1_1 (Wb2 m ρ c)
abbrev Wb4 : Dev nD → Valuation τ sig (Elt F) := fun c => StableHlo.after hostOps1_2 (Wb3 m ρ c)
/-- The same read at the TensorCore's references: where the second kernel is entered. -/
abbrev Ve4 : (c : Dev nD) → (b : Ref sig .tc) → Buf (Elt F) ((c : Thread nD τ).loc b) := fun c b => Wb4 m ρ c b
/-- After the second kernel. -/
def Wb5 (c : Dev nD) : Valuation τ sig (Elt F) :=
  Pipeline.withArrays spec1 c (Wb4 m ρ c) fun w => (dat1 (Ve4 m ρ) c).arrAt w cfg1.N
theorem Wb5_arr (c : Dev nD) (w : Fin cfg1.W) :
    Wb5 m ρ c (Proc.devRef .tc (Pipeline.arrRef spec1 w)) = (dat1 (Ve4 m ρ) c).arrAt w cfg1.N := by
  unfold Wb5; exact Pipeline.withArrays_arr spec1 launch1.win.arr_inj c _ _ w
theorem Wb5_of_ne (c : Dev nD) (b : Ref sig .tc) (hb : ∀ w, Pipeline.arrRef spec1 w ≠ b) :
    Wb5 m ρ c (Proc.devRef .tc b) = Wb4 m ρ c (Proc.devRef .tc b) := by
  unfold Wb5; exact Pipeline.withArrays_of_ne spec1 c _ _ b hb
theorem hF1 (c : Dev nD) (w : Fin cfg1.W) : (dat1 (Ve4 m ρ) c).arrAt w cfg1.N = Wb5 m ρ c (Pipeline.arrRef spec1 w) :=
  (Wb5_arr m ρ c w).symm
theorem hrest1 (c : Dev nD) : ∀ b, b ∉ Finset.univ.image (Pipeline.arrRef spec1) → Wb5 m ρ c b = Ve4 m ρ c b :=
  fun b hb => Wb5_of_ne m ρ c b fun w e => hb (Finset.mem_image.mpr ⟨w, Finset.mem_univ _, e⟩)

/-! ### A buffer no host stretch writes passes through the three stretches unchanged -/

theorem Wb4_of (c : Dev nD) (r : Ref sig .tc) (h1 : r ∉ hostOps1_W) (h2 : r ∉ hostOps1_1_W) (h3 : r ∉ hostOps1_2_W) :
    Wb4 m ρ c (Proc.devRef .tc r) = Wb1 m ρ c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-! ### The arguments end as launched: the second kernel reads each through an input window, no host stretch writes one,
    and the degree kernel reads the adjacency matrix through an input window and does not stage the other two -/

/-- At the second kernel's entry each argument array still holds its launch contents. -/
theorem Wb4_main_arg0 (c : Dev nD) : Wb4 m ρ c (Proc.devRef .tc main_arg0) = m ((c : Thread nD τ).loc main_arg0) :=
  calc Wb4 m ρ c (Proc.devRef .tc main_arg0)
    _ = Wb1 m ρ c (Proc.devRef .tc main_arg0) := Wb4_of m ρ c main_arg0 (by decide) (by decide) (by decide)
    _ = Wb0 m ρ c (Proc.devRef .tc main_arg0) := Wb1_of_ne m ρ c main_arg0 (by decide)
    _ = m ((c : Thread nD τ).loc main_arg0) := rfl
theorem Wb4_main_arg1 (c : Dev nD) : Wb4 m ρ c (Proc.devRef .tc main_arg1) = m ((c : Thread nD τ).loc main_arg1) :=
  calc Wb4 m ρ c (Proc.devRef .tc main_arg1)
    _ = Wb1 m ρ c (Proc.devRef .tc main_arg1) := Wb4_of m ρ c main_arg1 (by decide) (by decide) (by decide)
    _ = Wb0 m ρ c (Proc.devRef .tc main_arg1) := (Wb1_arr m ρ c 0).trans (((dat0 (Ve0 m ρ) c).arrAt_in 0 rfl _).trans (A_eq0 (Ve0 m ρ) c 0))
    _ = m ((c : Thread nD τ).loc main_arg1) := rfl
theorem Wb4_main_arg2 (c : Dev nD) : Wb4 m ρ c (Proc.devRef .tc main_arg2) = m ((c : Thread nD τ).loc main_arg2) :=
  calc Wb4 m ρ c (Proc.devRef .tc main_arg2)
    _ = Wb1 m ρ c (Proc.devRef .tc main_arg2) := Wb4_of m ρ c main_arg2 (by decide) (by decide) (by decide)
    _ = Wb0 m ρ c (Proc.devRef .tc main_arg2) := Wb1_of_ne m ρ c main_arg2 (by decide)
    _ = m ((c : Thread nD τ).loc main_arg2) := rfl
/-- After the degree kernel the degree array holds what its write-backs leave. -/
theorem Wb1_main_v0 (c : Dev nD) : Wb1 m ρ c (Proc.devRef .tc main_v0) = (dat0 (Ve0 m ρ) c).arrAt 1 cfg0.N :=
  Wb1_arr m ρ c 1

/-- The features `x`: window 3 of the second kernel. -/
theorem Wb5_main_arg0 (c : Dev nD) : Wb5 m ρ c (Proc.devRef .tc main_arg0) = m ((c : Thread nD τ).loc main_arg0) :=
  ((Wb5_arr m ρ c 3).trans (((dat1 (Ve4 m ρ) c).arrAt_in 3 rfl _).trans (A_eq1 (Ve4 m ρ) c 3))).trans (Wb4_main_arg0 m ρ c)
/-- The adjacency matrix `A`: window 2 of the second kernel, window 0 of the degree kernel. -/
theorem Wb5_main_arg1 (c : Dev nD) : Wb5 m ρ c (Proc.devRef .tc main_arg1) = m ((c : Thread nD τ).loc main_arg1) :=
  ((Wb5_arr m ρ c 2).trans (((dat1 (Ve4 m ρ) c).arrAt_in 2 rfl _).trans (A_eq1 (Ve4 m ρ) c 2))).trans (Wb4_main_arg1 m ρ c)
/-- The weights `W`: window 4 of the second kernel. -/
theorem Wb5_main_arg2 (c : Dev nD) : Wb5 m ρ c (Proc.devRef .tc main_arg2) = m ((c : Thread nD τ).loc main_arg2) :=
  ((Wb5_arr m ρ c 4).trans (((dat1 (Ve4 m ρ) c).arrAt_in 4 rfl _).trans (A_eq1 (Ve4 m ρ) c 4))).trans (Wb4_main_arg2 m ρ c)
/-- The result: the output array of the second kernel, window 5. -/
theorem Wb5_main_v8 (c : Dev nD) : Wb5 m ρ c (Proc.devRef .tc main_v8) = (dat1 (Ve4 m ρ) c).arrAt 5 cfg1.N :=
  Wb5_arr m ρ c 5

/-! ## The proof data family and the thread state -/

/-- Both pipelines' proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve4 m ρ) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
/-- A host stretch as a segment from the contents `W`, `Rh` riding along. -/
abbrev hsegh (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

theorem mem_uch (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `Wb5`, the generator register at some state. -/
abbrev Tlast (c : Dev nD) : sProp 𝕄 := iprop(StableHlo.held (c : Thread nD τ) (Pipeline.ucRefs τ sig) (Wb5 m ρ c) ∗ ∃ r, prngReg c r)

/-! ## The regions as segments -/

set_option backward.isDefEq.respectTransparency.types false in
/-- Region 0 as a segment: entered with every unscoped buffer at `Wb0`, left with them at `Wb1`. Its arrays are
    split out of the unscoped buffers on entry and put back at their final contents on exit; the generator register and the
    scoped buffers enter the invariant at the first point and come back after the last; nothing is owed. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ Lh lvh 0 fun _ _ => rfl
  pre c := iprop(StableHlo.held (c : Thread nD τ) (Pipeline.ucRefs τ sig) (Wb0 m ρ c) ∗ Rh c)
  post c := iprop(StableHlo.held (c : Thread nD τ) (Pipeline.ucRefs τ sig) (Wb1 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (Ve0 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (Ve0 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (fun b => Wb1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Wb4`, left with them at `Wb5`. Its arrays are
    split out of the unscoped buffers on entry and put back at their final contents on exit; the generator register and the
    scoped buffers enter the invariant at the first point and come back after the last; nothing is owed. -/
def reg1 : Pipeline.RegionSeg (pcfgs (F := F)) adm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve4 m ρ) c).loose
  hwaits := Pipeline.hwaits_of_owed_zero _ _ _ _ Lh lvh 1 fun _ _ => rfl
  pre c := iprop(StableHlo.held (c : Thread nD τ) (Pipeline.ucRefs τ sig) (Wb4 m ρ c) ∗ Rh c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (Ve4 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (Ve4 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve4 m ρ c) (fun b => Wb5 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segsh : List (Pipeline.Seg (pcfgs (F := F)) adm (pdats m ρ) () defs₀ 𝒱h Lh lvh) :=
  [ .region (reg0 m ρ),
    .host (hsegh hostOps1 hostOps1_sub hostOps1_fresh (Wb1 m ρ)),
    .host (hsegh hostOps1_1 hostOps1_1_sub hostOps1_1_fresh (Wb2 m ρ)),
    .host (hsegh hostOps1_2 hostOps1_2_sub hostOps1_2_fresh (Wb3 m ρ)),
    .region (reg1 m ρ) ]
/-- @main is the run of the segments. -/
theorem main_runh (c : Dev nD) : main (F := F) c = Pipeline.Seg.run (segsh m ρ) := (main_chain c).trans (by chain_rfl)

set_option backward.isDefEq.respectTransparency.types false in
/-- THE RUN: from any memory with zero counters every weakly fair execution of @main terminates, nothing faulting, and in
    every final state each unscoped buffer of every core holds what the last boundary `Wb5` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb5 m ρ c b) :=
  Pipeline.θ_run_regions_kit (pcfgs (F := F)) adm (pdats m ρ) () cellOf_inj emb₁ defs₀ 𝒱h Lh lvh m ρ main (segsh m ρ)
    (fun c Q => by rw [main_runh m ρ c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rh c)) (Tₙ := Tlast m ρ)
    (hch := ⟨fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb5 m ρ c) s')
      isplitl [Hh] <;> iassumption)
    (hQ := fun s h c => h c)

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uch main_arg0 (by decide))).trans (Wb5_main_arg0 m ρ c),
     (h c _ (mem_uch main_arg1 (by decide))).trans (Wb5_main_arg1 m ρ c),
     (h c _ (mem_uch main_arg2 (by decide))).trans (Wb5_main_arg2 m ρ c)⟩) (run_all m ρ)

/-- THE VALUE, named: the same run with the result array at the second kernel's final output array. -/
theorem run_value : θ_run defs (onTc (τ := τ) (main (F := F))) ⟨m, fun _ => 0, ρ⟩ (fun r => ∀ c : Dev nD,
      r.2.mem ((c.tc : Thread nD τ).loc main_v8) = (dat1 (Ve4 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uch main_v8 (by decide))).trans (Wb5_main_v8 m ρ c),
     (h c _ (mem_uch main_arg0 (by decide))).trans (Wb5_main_arg0 m ρ c),
     (h c _ (mem_uch main_arg1 (by decide))).trans (Wb5_main_arg1 m ρ c),
     (h c _ (mem_uch main_arg2 (by decide))).trans (Wb5_main_arg2 m ρ c)⟩) (run_all m ρ)

end Cert.Kernel.Hand

end
-- ==== Proof.HandKernelIdeal.R0Base.lean ====
/-
  The degree kernel (the first of the two kernel regions), what its three cases share.

  The grid has 8 × 8 points; point `t` has row band `t / 8` and column band `j = t % 8`. The body clears its
  accumulator when `j = 0`, adds the row sums of the current 2048 × 2048 block of the adjacency matrix to it at every
  point, and copies the accumulator into the output block when `j = 7`. So a point is in one of three cases:
  A (`j = 0`: clear, then add), B (`0 < j < 7`: add), C (`j = 7`: add, then copy out). Here: the two conditions in
  closed form over the grid, where the output window is left untouched and not written back (cases A and B) and
  where it is stored (case C), the memrefs the body is called with, and the block of a window read off the contents
  `V` the region is entered with.
-/
import proofs.«112918_j11965778887252_1_alg».proof.Proof.Gen.KernelIdeal.Launch
import proofs.«112918_j11965778887252_1_alg».proof.Proof.Gen.KernelIdeal.Skeleton
import proofs.«112918_j11965778887252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the first column band": the condition under which the accumulator is cleared. -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column band": the condition under which the accumulator is copied to the output block. -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input window is never idle. -/
theorem liveAt0_0 : ∀ t : Fin cfg0.N, cfg0.idle 0 (grid0.coords t) = false := by decide +kernel
/-- In case A nothing is stored into the output window, -/
theorem idleAt0_1_A : ∀ t : Fin cfg0.N, cond0_0 (grid0.coords t) → ¬cond0_1 (grid0.coords t) → cfg0.idle 1 (grid0.coords t) = true := by decide +kernel
/-- and its block is not written back there. -/
theorem noFlush0_1_A : ∀ t : Fin cfg0.N, cond0_0 (grid0.coords t) → ¬cond0_1 (grid0.coords t) → (cfg0.win 1).flush t = false := by decide +kernel
/-- The same in case B. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- In case C the output window is stored. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S2048x1 .f32 := (Memref.whole cc0_stg1_0 : Memref sig .tc .vmem S2048x1 .f32).view
/-- Each window's current staging memref at point `t`, and its wholeness. -/
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
/-- The accumulator: a whole scoped buffer of the kernel's own, -/
abbrev scM0_0 : Memref sig .tc .vmem S2048x1 .f32 := Memref.whole cc0_scratch0
/-- and the view through which what it holds is stated. -/
abbrev VS0_0 : View sig .tc .vmem S2048x1 .f32 := scM0_0.view

/-- The class invariant with the accumulator named: the accumulator at some contents, the other scoped buffers of the
    core at some contents, and the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

section Blocks
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Hand

end
-- ==== Proof.HandKernelIdeal.R0RunA.lean ====
/-
  The degree kernel's body in case A (first column band, `t % 8 = 0`): the accumulator, whatever it held, is cleared
  and then receives the row sums of the current block; nothing is stored into the output block, which is handed back
  as it was found. The run is stated as a pair of piece lists — what the stores leave in the output's staging buffer
  (none) and in the accumulator — with the proof that the body, started on whole memrefs holding the input block, runs
  to a continuation that holds the input as it was and the accumulator with those pieces written.
-/
import proofs.«112918_j11965778887252_1_alg».proof.Proof.HandKernelIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the stores leave, and the body's triple. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.HandKernelIdeal.R0RunB.lean ====
/-
  The degree kernel's body in case B (a middle column band, `0 < t % 8 < 7`): the accumulator, holding what the point
  before left (`xs0`), receives its old contents plus the row sums of the current block; nothing is stored into the
  output block. Stated as in case A, the accumulator now entered at named contents.
-/
import proofs.«112918_j11965778887252_1_alg».proof.Proof.HandKernelIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the pieces the stores leave, and the body's triple. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.HandKernelIdeal.R0RunC.lean ====
/-
  The degree kernel's body in case C (last column band, `t % 8 = 7`): the accumulator, holding what the point before
  left (`xs0`), receives its old contents plus the row sums of the current block, and the result is then copied
  into the output block, whose staging buffer may hold anything on entry. Stated as the pieces the stores leave in
  the output's staging buffer and in the accumulator, with the body's triple.
-/
import proofs.«112918_j11965778887252_1_alg».proof.Proof.HandKernelIdeal.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the pieces the stores leave, and the body's triple. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.HandKernelIdeal.R0.lean ====
/-
  The degree kernel over the whole grid: what its output block and its accumulator hold after every point, the
  invariant that carries the accumulator from one point to the next, and the obligation the body owes at each point.

  After the body at point `t` the accumulator holds the row sums of the blocks of the current row band seen so far
  (it is cleared when `t % 8 = 0`), and at the last column band (`t % 8 = 7`) the output block receives a copy. This
  module does not compute those sums: it names what each case's stores leave (the pieces the runs found, read back)
  and chains the cases by recursion on the point; the arithmetic is read off these names elsewhere.
-/
import proofs.«112918_j11965778887252_1_alg».proof.Proof.HandKernelIdeal.R0RunA
import proofs.«112918_j11965778887252_1_alg».proof.Proof.HandKernelIdeal.R0RunB
import proofs.«112918_j11965778887252_1_alg».proof.Proof.HandKernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window: a placeholder nothing consults (the window is neither written back
    nor read at the next point there). -/
def out0_A_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) : Vec F S2048x1 .f32 :=
  VO0_1.read (Elt F) (VO0_1.writes (Elt F) VO0_1.junk (kernelRun0_A c i arg2 harg2 arg3 harg3 arg4 harg4 hc0 hc1 x0).1)

/-- Case A's stores into the accumulator cover it. -/
theorem scover0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) (y : S2048x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S2048x1.size (by sl_kernel_rfl) y

/-- What case A leaves in the accumulator. -/
def sout0_A_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) : Vec F S2048x1 .f32 :=
  VS0_0.read (Elt F) (VS0_0.writes (Elt F) VS0_0.junk (kernelRun0_A c i arg2 harg2 arg3 harg3 arg4 harg4 hc0 hc1 x0).2.1)

/-- Case B stores nothing into the output window either. -/
def out0_B_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) : Vec F S2048x1 .f32 :=
  VO0_1.read (Elt F) (VO0_1.writes (Elt F) VO0_1.junk (kernelRun0_B c i arg2 harg2 arg3 harg3 arg4 harg4 hc0 hc1 x0 xs0).1)

/-- Case B's store into the accumulator covers it. -/
theorem scover0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) (y : S2048x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S2048x1.size (by sl_kernel_rfl) y

/-- What case B leaves in the accumulator. -/
def sout0_B_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) : Vec F S2048x1 .f32 :=
  VS0_0.read (Elt F) (VS0_0.writes (Elt F) VS0_0.junk (kernelRun0_B c i arg2 harg2 arg3 harg3 arg4 harg4 hc0 hc1 x0 xs0).2.1)

/-- Case C's store into the output window covers its block. -/
theorem cover0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) (y : S2048x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S2048x1.size (by sl_kernel_rfl) y

/-- What case C leaves in the output window's staging buffer. -/
def out0_C_1 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) : Vec F S2048x1 .f32 :=
  VO0_1.read (Elt F) (VO0_1.writes (Elt F) VO0_1.junk (kernelRun0_C c i arg2 harg2 arg3 harg3 arg4 harg4 hc0 hc1 x0 xs0).1)

/-- Case C's store into the accumulator covers it. -/
theorem scover0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) (y : S2048x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S2048x1.size (by sl_kernel_rfl) y

/-- What case C leaves in the accumulator. -/
def sout0_C_0 (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) : Vec F S2048x1 .f32 :=
  VS0_0.read (Elt F) (VS0_0.writes (Elt F) VS0_0.junk (kernelRun0_C c i arg2 harg2 arg3 harg3 arg4 harg4 hc0 hc1 x0 xs0).2.1)

section Region
variable (V : (c : Dev nD) → (b : Ref sig .tc) → Buf (Elt F) ((c : Thread nD τ).loc b))

/-! ## What the output block and the accumulator hold after each point -/

/-- THE ACCUMULATION: after the body at position `n`, the pair (output window's staging buffer, accumulator): the case
    the closed forms select at `n`, run on the point's input block, the accumulator entered at what position `n - 1` left. -/
def outsAt0 (c : Dev nD) : (n : ℕ) → n < cfg0.N → Vec F S2048x1 .f32 × Vec F S2048x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point of case A. -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The core's other scoped buffers (the second kernel's staging buffers and accumulator), each at some contents:
    the degree kernel never touches them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant, the accumulator split from the other scoped buffers. -/
theorem PhiA0_eq' (c : Dev nD) :
    (Pipeline.ΦA spec0 c : sProp 𝕄)
      = iprop(iprop((∃ d, owns (c : Thread nD τ) scM0_0 fullShare d) ∗ others0 (F := F) c) ∗ (∃ r, prngReg c r)) :=
  PhiA0_eq c

/-- The invariant before position `n`: before the first point the class's (the accumulator at anything); afterwards
    the accumulator at what the point before left in it, the other scoped buffers and the generator register at
    something. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The degree kernel's proof data on core `c`: the arrays as the region finds them (`V`); after the body at point
    `t` the input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the accumulator at what the point before left (at anything at the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq']
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
      · rw [PhiS0_castSucc V c t, PhiS0_pos V c _ _ hz]
        iintro ⟨⟨⟨HS0, Hrest⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _)
            iexact Hrest
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _)
            iexact Hrest
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hrest⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _)
            iexact Hrest
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq']
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region

end Cert.KernelIdeal.Hand

end
-- ==== Proof.HandKernelIdeal.R1Base.lean ====
/- Region 1 (the second kernel region, pipeline 1): what the three per-case runs of its body share. The windows'
   blocks read off the region-entry contents; the body's two branch conditions in closed form over the grid
   (the accumulator is reset where the inner coordinate is 0, the output block is stored where it is 7); where the
   output window is idle; the staging and scratch memrefs the body is called with; the region's invariant with the
   carried accumulator singled out. -/
import proofs.«112918_j11965778887252_1_alg».proof.Proof.Gen.KernelIdeal.Launch
import proofs.«112918_j11965778887252_1_alg».proof.Proof.Gen.KernelIdeal.Skeleton
import proofs.«112918_j11965778887252_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved;
    the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved;
    the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved;
    the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved;
    the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved;
    the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the accumulator's reset), from the grid coordinates: the inner
    coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the output block's store): the inner coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (reset, no output store) output window 5 is idle. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B (no reset, no output store) output window 5 is idle. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C (no reset, output store) output window 5 is live. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter). -/
abbrev VO1_5 : View sig .tc .vmem S2048x64 .f32 := (Memref.whole cc1_stg5_0 : Memref sig .tc .vmem S2048x64 .f32).view
/-- Each window's current staging memref at point `t`, and its wholeness. -/
abbrev ms1_0 (t : Fin cfg1.N) : Memref sig .tc .vmem S2048x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The scratch operand: a whole scoped buffer of the kernel's own, the accumulator carried between points. -/
abbrev scM1_0 : Memref sig .tc .vmem S2048x64 .f32 := Memref.whole cc1_scratch0
/-- The accumulator as a view: what it holds is stated through it. -/
abbrev VS1_0 : View sig .tc .vmem S2048x64 .f32 := scM1_0.view

/-! ## The region's invariant, the accumulator singled out -/

/-- The core's scoped buffers that region 1 neither stages nor uses (the other region's staging buffers and its
    scratch), each whole at some contents, beside `P`. -/
def oth1 (c : Dev nD) (P : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f)
      ∗ P)

/-- What stands beside the untouched buffers may be weakened. -/
theorem oth1_mono (c : Dev nD) {P Q : sProp 𝕄} (h : P ⊢ Q) : oth1 (F := F) c P ⊢ oth1 (F := F) c Q := by
  unfold oth1
  iintro ⟨H0, H1, H2, H3, H4, HP⟩
  isplitl [H0]; · iexact H0
  isplitl [H1]; · iexact H1
  isplitl [H2]; · iexact H2
  isplitl [H3]; · iexact H3
  isplitl [H4]; · iexact H4
  iapply h; iexact HP

/-- The class's invariant (the scoped rest at anything, the generator register at some state) with the accumulator
    as a memref owned at some contents: what the body obligation hands the run and takes back. -/
theorem PhiA1_eq (c : Dev nD) :
    (Pipeline.ΦA spec1 c : sProp 𝕄)
      = iprop(oth1 c iprop(∃ d, owns (c : Thread nD τ) scM1_0 fullShare d) ∗ (∃ r, prngReg c r)) := by
  unfold Pipeline.ΦA oth1; rw [scopedRest1_eq]; simp only [scM1_0, owns_whole]; try rfl

end Cert.KernelIdeal.Hand

end
-- ==== Proof.HandKernelIdeal.R1RunA.lean ====
/- Region 1, case A of its body's two conditionals: the accumulator is reset (inner coordinate 0) and the output block is not stored. The whole-body run on any whole
   memrefs, as a subtype: the pieces each written buffer ends with are the witness, found by running the body. -/
import proofs.«112918_j11965778887252_1_alg».proof.Proof.HandKernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case A
    (the accumulator is reset (inner coordinate 0) and the output block is not stored), with the proof that on whole memrefs — the five inputs' at their contents,
    the output's, which the case leaves alone, at contents `xi5` handed back untouched, the accumulator at anything —
    the body runs to the continuation holding the inputs' as they were, the accumulator with its pieces written. -/
noncomputable def kernelRun1_A (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.HandKernelIdeal.R1RunB.lean ====
/- Region 1, case B of its body's two conditionals: the accumulator is not reset and the output block is not stored (inner coordinate 1..6). The whole-body run on any whole
   memrefs, as a subtype: the pieces each written buffer ends with are the witness, found by running the body. -/
import proofs.«112918_j11965778887252_1_alg».proof.Proof.HandKernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case B
    (the accumulator is not reset and the output block is not stored (inner coordinate 1..6)), with the proof that on whole memrefs — the five inputs' at their contents,
    the output's, which the case leaves alone, at contents `xi5` handed back untouched, the accumulator at what the point before left (`xs0`) —
    the body runs to the continuation holding the inputs' as they were, the accumulator with its pieces written. -/
noncomputable def kernelRun1_B (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨[], ?_, fun xi5 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.HandKernelIdeal.R1RunC.lean ====
/- Region 1, case C of its body's two conditionals: the accumulator is not reset and the output block is stored (inner coordinate 7). The whole-body run on any whole
   memrefs, as a subtype: the pieces each written buffer ends with are the witness, found by running the body. -/
import proofs.«112918_j11965778887252_1_alg».proof.Proof.HandKernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the accumulator, as pieces (last first), in case C
    (the accumulator is not reset and the output block is stored (inner coordinate 7)), with the proof that on whole memrefs — the five inputs' at their contents,
    the output's at anything, the accumulator at what the point before left (`xs0`) —
    the body runs to the continuation holding the inputs' as they were, the output's with its pieces written, the accumulator with its pieces written. -/
noncomputable def kernelRun1_C (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    Σ' (L5 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.HandKernelIdeal.R1.lean ====
/- Region 1 (the second kernel region, pipeline 1) at region-entry contents `V`: what the output's staging buffer and
   the carried accumulator hold per case and point by point, the pipeline's proof data, the body obligation at every
   point, and the invariant's two ends. -/
import proofs.«112918_j11965778887252_1_alg».proof.Proof.HandKernelIdeal.R1RunA
import proofs.«112918_j11965778887252_1_alg».proof.Proof.HandKernelIdeal.R1RunB
import proofs.«112918_j11965778887252_1_alg».proof.Proof.HandKernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## What each case leaves -/

/-- Case A stores nothing into output 5 (the window is idle at its points and not written back there): no pieces — a
    placeholder (junk read back) that nothing consults. -/
def out1_A_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) : Vec F S2048x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A resets the accumulator and adds this point's product: its pieces for the accumulator tile it, so they cover it. -/
theorem scover1_A_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) (y : S2048x64.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x64.size (by sl_kernel_rfl) y

/-- What case A leaves in the accumulator: its pieces read back over junk. -/
def sout1_A_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into output 5 (the window is idle at its points and not written back there): no pieces — a
    placeholder (junk read back) that nothing consults. -/
def out1_B_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B adds this point's product to the accumulator: its pieces for the accumulator tile it, so they cover it. -/
theorem scover1_B_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x64.size (by sl_kernel_rfl) y

/-- What case B leaves in the accumulator: its pieces read back over junk. -/
def sout1_B_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for output 5 tile its block (one whole store), so they cover it. -/
theorem cover1_C_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x64.size (by sl_kernel_rfl) y

/-- What case C leaves in output 5's staging buffer: its pieces read back over junk. -/
def out1_C_5 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C adds this point's product to the accumulator and stores the output block: its pieces for the accumulator tile it, so they cover it. -/
theorem scover1_C_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x64.size (by sl_kernel_rfl) y

/-- What case C leaves in the accumulator: its pieces read back over junk. -/
def sout1_C_0 (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output and the accumulator hold after each point -/

/-- THE ACCUMULATION. What output 5's staging buffer and the accumulator hold after the body at position `n`: the case
    the closed forms select at `n`, run at the point's memrefs and input blocks, the accumulator read at what the
    position before left in it. An assignment of the conditions no point meets is no case. -/
def outsAt1 (c : Dev nD) : (n : ℕ) → n < cfg1.N → Vec F S2048x64 .f32 × Vec F S2048x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the rest at
    anything); afterwards the scoped rest with the accumulator at what the point before left in it, the other buffers
    at anything, and the generator register at some state. -/
def PhiS1 (c : Dev nD) : (n : ℕ) → n ≤ cfg1.N → sProp 𝕄
  | 0, _ => Pipeline.ΦA spec1 c
  | n + 1, hn => iprop(oth1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(oth1 c (owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(oth1 c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which case the point is in; so the
    run applies; the invariant hands the body the accumulator at what the point before left (at anything at the first
    point), the rest of the scoped buffers and the generator register pass through, and the accumulator is taken back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold oth1
        iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        unfold oth1
        iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      have hz : t.val ≠ 0 := by omega
      rw [PhiS1_castSucc V c t, PhiS1_pos V c _ _ hz]
      unfold oth1
      iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      unfold oth1
      iintro ⟨⟨⟨Hb0, Hb1, Hb2, Hb3, Hb4, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold oth1
  iintro ⟨⟨Hb0, Hb1, Hb2, Hb3, Hb4, HS0⟩, Hg⟩
  isplitl [Hb0 Hb1 Hb2 Hb3 Hb4 HS0]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.HandKernelIdeal.Frame.lean ====
/-
  The whole program: two kernel regions with three stretches of host operations between them.

  The buffer contents are followed from the launch to the return: `Wb0` at launch (where the degree kernel is
  entered); `Wb1` after it (its output array at what its write-backs leave, everything else as entered); `Wb2`, `Wb3`,
  `Wb4` after each host stretch (the normalising vector computed from the degrees and laid out twice as a column);
  `Wb5` after the second kernel (its output array at what its write-backs leave). Each region is a segment that takes
  every unscoped buffer at one of these valuations to the next; the run of the five segments ends with every unscoped
  buffer at `Wb5`. Read at the three argument arrays, which nothing writes, that is the frame claim; read at the result
  array it names the program's value as the second kernel's final output array.
-/
import proofs.«112918_j11965778887252_1_alg».proof.Proof.HandKernelIdeal.R0
import proofs.«112918_j11965778887252_1_alg».proof.Proof.HandKernelIdeal.R1
import proofs.«112918_j11965778887252_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: where the degree kernel is entered. -/
abbrev Wb0 : Dev nD → Valuation τ sig (Elt F) := fun c b => (s₀ m ρ).mem ((c : Dev nD), b)
/-- The same read at the TensorCore's references. -/
abbrev Ve0 : (c : Dev nD) → (b : Ref sig .tc) → Buf (Elt F) ((c : Thread nD τ).loc b) := fun c b => Wb0 m ρ c b
/-- After the degree kernel: its arrays at what the pipeline leaves, every other buffer as entered. -/
def Wb1 (c : Dev nD) : Valuation τ sig (Elt F) :=
  Pipeline.withArrays spec0 c (Wb0 m ρ c) fun w => (dat0 (Ve0 m ρ) c).arrAt w cfg0.N
theorem Wb1_arr (c : Dev nD) (w : Fin cfg0.W) :
    Wb1 m ρ c (Proc.devRef .tc (Pipeline.arrRef spec0 w)) = (dat0 (Ve0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
theorem hF0 (c : Dev nD) (w : Fin cfg0.W) : (dat0 (Ve0 m ρ) c).arrAt w cfg0.N = Wb1 m ρ c (Pipeline.arrRef spec0 w) :=
  (Wb1_arr m ρ c w).symm
theorem hrest0 (c : Dev nD) : ∀ b, b ∉ Finset.univ.image (Pipeline.arrRef spec0) → Wb1 m ρ c b = Ve0 m ρ c b :=
  fun b hb => Wb1_of_ne m ρ c b fun w e => hb (Finset.mem_image.mpr ⟨w, Finset.mem_univ _, e⟩)

/-- After the three host stretches: the degrees reshaped to a vector, compared with zero and inverted; the select between
    the inverse square root and zero; the two column layouts of the result. -/
abbrev Wb2 : Dev nD → Valuation τ sig (Elt F) := fun c => StableHlo.after hostOps1 (Wb1 m ρ c)
abbrev Wb3 : Dev nD → Valuation τ sig (Elt F) := fun c => StableHlo.after hostOps1_1 (Wb2 m ρ c)
abbrev Wb4 : Dev nD → Valuation τ sig (Elt F) := fun c => StableHlo.after hostOps1_2 (Wb3 m ρ c)
/-- The same read at the TensorCore's references: where the second kernel is entered. -/
abbrev Ve4 : (c : Dev nD) → (b : Ref sig .tc) → Buf (Elt F) ((c : Thread nD τ).loc b) := fun c b => Wb4 m ρ c b
/-- After the second kernel. -/
def Wb5 (c : Dev nD) : Valuation τ sig (Elt F) :=
  Pipeline.withArrays spec1 c (Wb4 m ρ c) fun w => (dat1 (Ve4 m ρ) c).arrAt w cfg1.N
theorem Wb5_arr (c : Dev nD) (w : Fin cfg1.W) :
    Wb5 m ρ c (Proc.devRef .tc (Pipeline.arrRef spec1 w)) = (dat1 (Ve4 m ρ) c).arrAt w cfg1.N := by
  unfold Wb5; exact Pipeline.withArrays_arr spec1 launch1.win.arr_inj c _ _ w
theorem Wb5_of_ne (c : Dev nD) (b : Ref sig .tc) (hb : ∀ w, Pipeline.arrRef spec1 w ≠ b) :
    Wb5 m ρ c (Proc.devRef .tc b) = Wb4 m ρ c (Proc.devRef .tc b) := by
  unfold Wb5; exact Pipeline.withArrays_of_ne spec1 c _ _ b hb
theorem hF1 (c : Dev nD) (w : Fin cfg1.W) : (dat1 (Ve4 m ρ) c).arrAt w cfg1.N = Wb5 m ρ c (Pipeline.arrRef spec1 w) :=
  (Wb5_arr m ρ c w).symm
theorem hrest1 (c : Dev nD) : ∀ b, b ∉ Finset.univ.image (Pipeline.arrRef spec1) → Wb5 m ρ c b = Ve4 m ρ c b :=
  fun b hb => Wb5_of_ne m ρ c b fun w e => hb (Finset.mem_image.mpr ⟨w, Finset.mem_univ _, e⟩)

/-! ### A buffer no host stretch writes passes through the three stretches unchanged -/

theorem Wb4_of (c : Dev nD) (r : Ref sig .tc) (h1 : r ∉ hostOps1_W) (h2 : r ∉ hostOps1_1_W) (h3 : r ∉ hostOps1_2_W) :
    Wb4 m ρ c (Proc.devRef .tc r) = Wb1 m ρ c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-! ### The arguments end as launched: the second kernel reads each through an input window, no host stretch writes one,
    and the degree kernel reads the adjacency matrix through an input window and does not stage the other two -/

/-- At the second kernel's entry each argument array still holds its launch contents. -/
theorem Wb4_main_arg0 (c : Dev nD) : Wb4 m ρ c (Proc.devRef .tc main_arg0) = m ((c : Thread nD τ).loc main_arg0) :=
  calc Wb4 m ρ c (Proc.devRef .tc main_arg0)
    _ = Wb1 m ρ c (Proc.devRef .tc main_arg0) := Wb4_of m ρ c main_arg0 (by decide) (by decide) (by decide)
    _ = Wb0 m ρ c (Proc.devRef .tc main_arg0) := Wb1_of_ne m ρ c main_arg0 (by decide)
    _ = m ((c : Thread nD τ).loc main_arg0) := rfl
theorem Wb4_main_arg1 (c : Dev nD) : Wb4 m ρ c (Proc.devRef .tc main_arg1) = m ((c : Thread nD τ).loc main_arg1) :=
  calc Wb4 m ρ c (Proc.devRef .tc main_arg1)
    _ = Wb1 m ρ c (Proc.devRef .tc main_arg1) := Wb4_of m ρ c main_arg1 (by decide) (by decide) (by decide)
    _ = Wb0 m ρ c (Proc.devRef .tc main_arg1) := (Wb1_arr m ρ c 0).trans (((dat0 (Ve0 m ρ) c).arrAt_in 0 rfl _).trans (A_eq0 (Ve0 m ρ) c 0))
    _ = m ((c : Thread nD τ).loc main_arg1) := rfl
theorem Wb4_main_arg2 (c : Dev nD) : Wb4 m ρ c (Proc.devRef .tc main_arg2) = m ((c : Thread nD τ).loc main_arg2) :=
  calc Wb4 m ρ c (Proc.devRef .tc main_arg2)
    _ = Wb1 m ρ c (Proc.devRef .tc main_arg2) := Wb4_of m ρ c main_arg2 (by decide) (by decide) (by decide)
    _ = Wb0 m ρ c (Proc.devRef .tc main_arg2) := Wb1_of_ne m ρ c main_arg2 (by decide)
    _ = m ((c : Thread nD τ).loc main_arg2) := rfl
/-- After the degree kernel the degree array holds what its write-backs leave. -/
theorem Wb1_main_v0 (c : Dev nD) : Wb1 m ρ c (Proc.devRef .tc main_v0) = (dat0 (Ve0 m ρ) c).arrAt 1 cfg0.N :=
  Wb1_arr m ρ c 1

/-- The features `x`: window 3 of the second kernel. -/
theorem Wb5_main_arg0 (c : Dev nD) : Wb5 m ρ c (Proc.devRef .tc main_arg0) = m ((c : Thread nD τ).loc main_arg0) :=
  ((Wb5_arr m ρ c 3).trans (((dat1 (Ve4 m ρ) c).arrAt_in 3 rfl _).trans (A_eq1 (Ve4 m ρ) c 3))).trans (Wb4_main_arg0 m ρ c)
/-- The adjacency matrix `A`: window 2 of the second kernel, window 0 of the degree kernel. -/
theorem Wb5_main_arg1 (c : Dev nD) : Wb5 m ρ c (Proc.devRef .tc main_arg1) = m ((c : Thread nD τ).loc main_arg1) :=
  ((Wb5_arr m ρ c 2).trans (((dat1 (Ve4 m ρ) c).arrAt_in 2 rfl _).trans (A_eq1 (Ve4 m ρ) c 2))).trans (Wb4_main_arg1 m ρ c)
/-- The weights `W`: window 4 of the second kernel. -/
theorem Wb5_main_arg2 (c : Dev nD) : Wb5 m ρ c (Proc.devRef .tc main_arg2) = m ((c : Thread nD τ).loc main_arg2) :=
  ((Wb5_arr m ρ c 4).trans (((dat1 (Ve4 m ρ) c).arrAt_in 4 rfl _).trans (A_eq1 (Ve4 m ρ) c 4))).trans (Wb4_main_arg2 m ρ c)
/-- The result: the output array of the second kernel, window 5. -/
theorem Wb5_main_v8 (c : Dev nD) : Wb5 m ρ c (Proc.devRef .tc main_v8) = (dat1 (Ve4 m ρ) c).arrAt 5 cfg1.N :=
  Wb5_arr m ρ c 5

/-! ## The proof data family and the thread state -/

/-- Both pipelines' proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve4 m ρ) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core owing nothing. -/
abbrev Rh (c : Dev nD) : sProp 𝕄 := iprop((∃ r, prngReg c r) ∗ ∃ W, owes (c : Thread nD τ) (0 : CellTallies nD τ sig Unit) W)
/-- A host stretch as a segment from the contents `W`, `Rh` riding along. -/
abbrev hsegh (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh

theorem mem_uch (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `Wb5`, the generator register at some state. -/
abbrev Tlast (c : Dev nD) : sProp 𝕄 := iprop(StableHlo.held (c : Thread nD τ) (Pipeline.ucRefs τ sig) (Wb5 m ρ c) ∗ ∃ r, prngReg c r)

/-! ## The regions as segments -/

set_option backward.isDefEq.respectTransparency.types false in
/-- Region 0 as a segment: entered with every unscoped buffer at `Wb0`, left with them at `Wb1`. Its arrays are
    split out of the unscoped buffers on entry and put back at their final contents on exit; the generator register and the
    scoped buffers enter the invariant at the first point and come back after the last; nothing is owed. -/
def reg0 : Pipeline.RegionSeg (pcfgs (F := F)) adm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ Lh lvh 0 fun _ _ => rfl
  pre c := iprop(StableHlo.held (c : Thread nD τ) (Pipeline.ucRefs τ sig) (Wb0 m ρ c) ∗ Rh c)
  post c := iprop(StableHlo.held (c : Thread nD τ) (Pipeline.ucRefs τ sig) (Wb1 m ρ c) ∗ Rh c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (Ve0 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout0 (Ve0 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (fun b => Wb1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Wb4`, left with them at `Wb5`. Its arrays are
    split out of the unscoped buffers on entry and put back at their final contents on exit; the generator register and the
    scoped buffers enter the invariant at the first point and come back after the last; nothing is owed. -/
def reg1 : Pipeline.RegionSeg (pcfgs (F := F)) adm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve4 m ρ) c).loose
  hwaits := Pipeline.hwaits_of_owed_zero _ _ _ _ Lh lvh 1 fun _ _ => rfl
  pre c := iprop(StableHlo.held (c : Thread nD τ) (Pipeline.ucRefs τ sig) (Wb4 m ρ c) ∗ Rh c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (Ve4 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (Ve4 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve4 m ρ c) (fun b => Wb5 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five segments in order. -/
abbrev segsh : List (Pipeline.Seg (pcfgs (F := F)) adm (pdats m ρ) () defs₀ 𝒱h Lh lvh) :=
  [ .region (reg0 m ρ),
    .host (hsegh hostOps1 hostOps1_sub hostOps1_fresh (Wb1 m ρ)),
    .host (hsegh hostOps1_1 hostOps1_1_sub hostOps1_1_fresh (Wb2 m ρ)),
    .host (hsegh hostOps1_2 hostOps1_2_sub hostOps1_2_fresh (Wb3 m ρ)),
    .region (reg1 m ρ) ]
/-- @main is the run of the segments. -/
theorem main_runh (c : Dev nD) : main (F := F) c = Pipeline.Seg.run (segsh m ρ) := (main_chain c).trans (by chain_rfl)

set_option backward.isDefEq.respectTransparency.types false in
/-- THE RUN: from any memory with zero counters every weakly fair execution of @main terminates, nothing faulting, and in
    every final state each unscoped buffer of every core holds what the last boundary `Wb5` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb5 m ρ c b) :=
  Pipeline.θ_run_regions_kit (pcfgs (F := F)) adm (pdats m ρ) () cellOf_inj emb₁ defs₀ 𝒱h Lh lvh m ρ main (segsh m ρ)
    (fun c Q => by rw [main_runh m ρ c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rh c)) (Tₙ := Tlast m ρ)
    (hch := ⟨fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb5 m ρ c) s')
      isplitl [Hh] <;> iassumption)
    (hQ := fun s h c => h c)

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uch main_arg0 (by decide))).trans (Wb5_main_arg0 m ρ c),
     (h c _ (mem_uch main_arg1 (by decide))).trans (Wb5_main_arg1 m ρ c),
     (h c _ (mem_uch main_arg2 (by decide))).trans (Wb5_main_arg2 m ρ c)⟩) (run_all m ρ)

/-- THE VALUE, named: the same run with the result array at the second kernel's final output array. -/
theorem run_value : θ_run defs (onTc (τ := τ) (main (F := F))) ⟨m, fun _ => 0, ρ⟩ (fun r => ∀ c : Dev nD,
      r.2.mem ((c.tc : Thread nD τ).loc main_v8) = (dat1 (Ve4 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uch main_v8 (by decide))).trans (Wb5_main_v8 m ρ c),
     (h c _ (mem_uch main_arg0 (by decide))).trans (Wb5_main_arg0 m ρ c),
     (h c _ (mem_uch main_arg1 (by decide))).trans (Wb5_main_arg1 m ρ c),
     (h c _ (mem_uch main_arg2 (by decide))).trans (Wb5_main_arg2 m ρ c)⟩) (run_all m ρ)

end Cert.KernelIdeal.Hand

end
-- ==== Proof.Spec.lean ====
/-
  The mathematics of one graph-convolution layer, stated over the extended reals with no program in sight.

  For an adjacency matrix `A` (16384 × 16384), features `x` (16384 × 64) and weights `W` (64 × 64):
  the degree of node `i` is the row sum `deg A i = ∑ k, A i k`; its normalising factor is
  `dv A i = (deg A i)^(-1/2)` when the degree is positive and `0` otherwise; the layer's output is
  `(D^(-1/2) A D^(-1/2)) x W` with `D` the diagonal matrix of degrees.

  Two groupings of that product are named. `Gref` scales the adjacency matrix first, entry by entry,
  `((dv i · A i k) · dv k)`, and then multiplies by `x` and by `W`. `Gker` scales the rows of `x` by `dv k`,
  multiplies by the unscaled `A`, scales row `i` of the product by `dv i`, and then multiplies by `W`.
  They agree whenever every entry of `A` and of `x` is a real number (the factor `dv i` moves across the
  sum over `k` by distributivity, which holds for finite values): that law is proved in `SpecLaw.lean`.
-/
import Idealize.ShloMosaic.PureOps.Ideal
import Idealize.ShloMosaic.Lib.ValueIdx

noncomputable section

open scoped BigOperators

namespace Cert.Gcn

open Idealize.ShloMosaic Idealize.ShloMosaic.ValueIdx

/-- The normalising factor of a node whose degree is `s`: `s^(-1/2)` when `0 < s`, and `0` otherwise
    (spelt as a select on the comparison, the form both programs compute it in). -/
def dinv (s : EReal) : EReal := Scalar.select (Ideal.cmp .ogt s 0) (Ideal.rsqrt s) 0

/-- The degree of node `i`: the sum of row `i` of the adjacency matrix. -/
def deg (A : (⟨2, ![16384, 16384]⟩ : Shape).Idx → EReal) (i : Fin 16384) : EReal :=
  ∑ k : Fin 16384, A (ix2 i k)

/-- The normalising factor of node `i`. -/
def dv (A : (⟨2, ![16384, 16384]⟩ : Shape).Idx → EReal) (i : Fin 16384) : EReal := dinv (deg A i)

/-- The layer's output at row `i`, column `o`, with the adjacency matrix scaled entry by entry first. -/
def Gref (x : (⟨2, ![16384, 64]⟩ : Shape).Idx → EReal) (A : (⟨2, ![16384, 16384]⟩ : Shape).Idx → EReal)
    (W : (⟨2, ![64, 64]⟩ : Shape).Idx → EReal) (i : Fin 16384) (o : Fin 64) : EReal :=
  ∑ f : Fin 64, (∑ k : Fin 16384, ((dv A i * A (ix2 i k)) * dv A k) * x (ix2 k f)) * W (ix2 f o)

/-- The layer's output at row `i`, column `o`, with the rows of `x` scaled first and row `i` of the product
    scaled afterwards. -/
def Gker (x : (⟨2, ![16384, 64]⟩ : Shape).Idx → EReal) (A : (⟨2, ![16384, 16384]⟩ : Shape).Idx → EReal)
    (W : (⟨2, ![64, 64]⟩ : Shape).Idx → EReal) (i : Fin 16384) (o : Fin 64) : EReal :=
  ∑ f : Fin 64, ((∑ k : Fin 16384, A (ix2 i k) * (x (ix2 k f) * dv A k)) * dv A i) * W (ix2 f o)

end Cert.Gcn

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.Val.Mid.lean ====
/-
  The host lines between the kernel program's two regions, read at an index.

  The first region leaves a column `[16384, 1]`. The host flattens it to a vector `s`, compares `s` with zero,
  takes `s^(-1/2)`, selects between that and zero, and casts the result back to two `[16384, 1]` columns that
  the second region reads. Entry `(i, 0)` of either column is therefore the normalising factor `dinv` of the
  specification applied to entry `(i, 0)` of what the first region left, whatever that is.
-/
import proofs.«112918_j11965778887252_1_alg».proof.Proof.Gen.KernelIdeal.Launch
import proofs.«112918_j11965778887252_1_alg».proof.Proof.Spec
import proofs.«112918_j11965778887252_1_alg».proof.Proof.LibColumn
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe
  Idealize.ShloMosaic.StableHlo Idealize.ShloMosaic.ValueIdx

/-- An `[a, 1]` column cast to an `[a]` array reads, at `p`, the column's entry of row `p`: both positions are
    the `p`-th in row-major order. -/
theorem shapeCast_a1_a_apply {α : Type} {a : ℕ} (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) :=
  shapeCast_apply v h _ _ (by
    rw [Shape.rowMajor_val_two, Shape.rowMajor_val_one]
    show p.val * 1 + 0 = p.val
    rw [Nat.mul_one, Nat.add_zero])

/-- The host lines between the two regions, as one function of the column the first region leaves: the column
    flattened to a vector `s`, then the select on `0 < s` between `s^(-1/2)` and the zero literal. -/
def dvec (v : FVec Ideal S16384x1 .f32) : FVec Ideal S16384 .f32 :=
  select (cmpf (F := Ideal) .ogt (shapeCast S16384 v shapeCasts_S16384x1_S16384)
      (broadcastInDim S16384 ![] bcast_S_S16384 (constant (F := Ideal) S_ .f32 0x00000000#32)))
    (Host.rsqrt (F := Ideal) (shapeCast S16384 v shapeCasts_S16384x1_S16384))
    (broadcastInDim S16384 ![] bcast_S_S16384 (id (constant (F := Ideal) S_ .f32 0x00000000#32)))

/-- Entry `i` of that vector is the normalising factor of the column's entry of row `i`. -/
theorem dvec_at (v : FVec Ideal S16384x1 .f32) (i : Fin 16384) :
    dvec v (ix1 i) = Cert.Gcn.dinv (v (ix2 i (0 : Fin 1))) := by
  have h1 : shapeCast S16384 v shapeCasts_S16384x1_S16384 (ix1 i) = v (ix2 i (0 : Fin 1)) :=
    shapeCast_a1_a_apply v shapeCasts_S16384x1_S16384 i
  have h2 : broadcastInDim S16384 ![] bcast_S_S16384 (constant (F := Ideal) S_ .f32 0x00000000#32) (ix1 i) = (0 : EReal) :=
    (Column.broadcastInDim_scalar_apply _ bcast_S_S16384 _ (ix1 i)).trans Ideal.ofBits_zero_f32
  have h3 : broadcastInDim S16384 ![] bcast_S_S16384 (id (constant (F := Ideal) S_ .f32 0x00000000#32)) (ix1 i) = (0 : EReal) :=
    (Column.broadcastInDim_scalar_apply _ bcast_S_S16384 _ (ix1 i)).trans Ideal.ofBits_zero_f32
  show Scalar.select (FloatOps.cmpf .ogt (shapeCast S16384 v shapeCasts_S16384x1_S16384 (ix1 i))
      (broadcastInDim S16384 ![] bcast_S_S16384 (constant (F := Ideal) S_ .f32 0x00000000#32) (ix1 i)))
    (FloatOps.hostUnary .rsqrt (shapeCast S16384 v shapeCasts_S16384x1_S16384 (ix1 i)))
    (broadcastInDim S16384 ![] bcast_S_S16384 (id (constant (F := Ideal) S_ .f32 0x00000000#32)) (ix1 i)) = _
  rw [h1, h2, h3, Ideal.cmpf_def, Ideal.hostUnary_rsqrt_def]
  rfl

/-- After the host lines, the column the second region reads as its row factors is the vector above, cast back
    to a column. -/
theorem dcol_term (W : Valuation τ sig (Elt Ideal)) :
    (StableHlo.after hostOps1_2 (StableHlo.after hostOps1_1 (StableHlo.after hostOps1 W)) (Proc.devRef .tc main_v6)
        : S16384x1.Idx → EReal)
      = shapeCast S16384x1 (dvec (W (Proc.devRef .tc main_v0))) shapeCasts_S16384_S16384x1 := by
  simp only [hostOps1, hostOps1_1, hostOps1_2]
  after_results
  rfl

/-- The same for the column the second region reads as its column factors. -/
theorem drow_term (W : Valuation τ sig (Elt Ideal)) :
    (StableHlo.after hostOps1_2 (StableHlo.after hostOps1_1 (StableHlo.after hostOps1 W)) (Proc.devRef .tc main_v7)
        : S16384x1.Idx → EReal)
      = shapeCast S16384x1 (dvec (W (Proc.devRef .tc main_v0))) shapeCasts_S16384_S16384x1 := by
  simp only [hostOps1, hostOps1_1, hostOps1_2]
  after_results
  rfl

/-- After the host lines, row `i` of the first factor column is the normalising factor of what the first region
    left in row `i`. -/
theorem dcol_after (W : Valuation τ sig (Elt Ideal)) (i : Fin 16384) :
    (StableHlo.after hostOps1_2 (StableHlo.after hostOps1_1 (StableHlo.after hostOps1 W)) (Proc.devRef .tc main_v6)
        : S16384x1.Idx → EReal) (ValueIdx.ix2 i (0 : Fin 1))
      = Cert.Gcn.dinv ((W (Proc.devRef .tc main_v0) : S16384x1.Idx → EReal) (ValueIdx.ix2 i (0 : Fin 1))) :=
  (congrFun (dcol_term W) (ix2 i (0 : Fin 1))).trans
    ((Column.shapeCast_a_a1_apply _ shapeCasts_S16384_S16384x1 i 0).trans (dvec_at _ i))

/-- The same for the second factor column. -/
theorem drow_after (W : Valuation τ sig (Elt Ideal)) (i : Fin 16384) :
    (StableHlo.after hostOps1_2 (StableHlo.after hostOps1_1 (StableHlo.after hostOps1 W)) (Proc.devRef .tc main_v7)
        : S16384x1.Idx → EReal) (ValueIdx.ix2 i (0 : Fin 1))
      = Cert.Gcn.dinv ((W (Proc.devRef .tc main_v0) : S16384x1.Idx → EReal) (ValueIdx.ix2 i (0 : Fin 1))) :=
  (congrFun (drow_term W) (ix2 i (0 : Fin 1))).trans
    ((Column.shapeCast_a_a1_apply _ shapeCasts_S16384_S16384x1 i 0).trans (dvec_at _ i))

end Cert.KernelIdeal.Val

end
-- ==== Proof.Val.Entry.lean ====
/-
  What the second kernel finds in its input arrays when it is entered.

  The three argument arrays still hold their launch contents: no host operation writes them and the degree kernel only
  reads the adjacency matrix. The two column arrays hold, at row `i`, the normalising factor of the entry the degree
  kernel left at row `i` of its output array: the host lines between the kernels reshape that column to a vector,
  select between its inverse square root and zero on the sign of the degree, and lay the result out as a column twice.
-/
import proofs.«112918_j11965778887252_1_alg».proof.Proof.HandKernelIdeal.Frame
import proofs.«112918_j11965778887252_1_alg».proof.Proof.Val.Mid

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The features at the second kernel's entry are the launch contents. -/
theorem entry_arg0 (c : Dev nD) : Ve4 (F := Ideal) m ρ c main_arg0 = m ((c : Thread nD τ).loc main_arg0) := Wb4_main_arg0 m ρ c
/-- The adjacency matrix at the second kernel's entry is the launch contents. -/
theorem entry_arg1 (c : Dev nD) : Ve4 (F := Ideal) m ρ c main_arg1 = m ((c : Thread nD τ).loc main_arg1) := Wb4_main_arg1 m ρ c
/-- The weights at the second kernel's entry are the launch contents. -/
theorem entry_arg2 (c : Dev nD) : Ve4 (F := Ideal) m ρ c main_arg2 = m ((c : Thread nD τ).loc main_arg2) := Wb4_main_arg2 m ρ c

/-- The row-factor column at the second kernel's entry: the normalising factor of the degree kernel's output entry. -/
theorem entry_v6 (c : Dev nD) (i : Fin 16384) :
    (Ve4 (F := Ideal) m ρ c main_v6 : S16384x1.Idx → EReal) (ix2 i (0 : Fin 1))
      = Cert.Gcn.dinv (((dat0 (F := Ideal) (Ve0 m ρ) c).arrAt 1 cfg0.N : S16384x1.Idx → EReal) (ix2 i (0 : Fin 1))) :=
  (dcol_after (Wb1 m ρ c) i).trans (congrArg (fun (v : S16384x1.Idx → EReal) => Cert.Gcn.dinv (v (ix2 i (0 : Fin 1)))) (Wb1_main_v0 m ρ c))

/-- The column-factor column at the second kernel's entry: the same values. -/
theorem entry_v7 (c : Dev nD) (i : Fin 16384) :
    (Ve4 (F := Ideal) m ρ c main_v7 : S16384x1.Idx → EReal) (ix2 i (0 : Fin 1))
      = Cert.Gcn.dinv (((dat0 (F := Ideal) (Ve0 m ρ) c).arrAt 1 cfg0.N : S16384x1.Idx → EReal) (ix2 i (0 : Fin 1))) :=
  (drow_after (Wb1 m ρ c) i).trans (congrArg (fun (v : S16384x1.Idx → EReal) => Cert.Gcn.dinv (v (ix2 i (0 : Fin 1)))) (Wb1_main_v0 m ρ c))

end Cert.KernelIdeal.Val

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.Val.Value0.lean ====
/-
  The degree kernel's value: after its region the output array holds the degrees of the adjacency matrix.

  The grid has 8 × 8 points; point `t` works on block `(t / 8, t % 8)` of the 16384 × 16384 adjacency matrix, blocks
  of 2048 × 2048. Within a row band `b = t / 8` the accumulator is cleared at the first column band and then, at every
  column band `j`, receives its old contents plus the sums of the rows of block `(b, j)`. So after the point with
  column band `j`, row `r` of the accumulator holds
      ((0 + s₀) + s₁) + … + s_j,   s_j' = ∑_{k < 2048} A (2048 b + r, 2048 j' + k),
  and at the last column band this is copied into the output block, which is written back as block `(b, 0)` of the
  16384 × 1 output array. Addition of extended reals is commutative and associative with `0` neutral, so the eight
  band parts add up to the whole row sum ∑_{k < 16384} A (2048 b + r, k): the degree of node `2048 b + r`. The eight
  row bands' blocks tile the output array, so every row of it ends at the degree of its node.

  In order: what each case of the body leaves, as the body's payloads applied to what it read; the payloads read at a
  row; the input block's row sums as band parts of the matrix; the running sum by induction over the points; what a
  flushing point writes back; the cover of the output array by the flushed blocks; the array.
-/
import proofs.«112918_j11965778887252_1_alg».proof.Proof.HandKernelIdeal.R0
import proofs.«112918_j11965778887252_1_alg».proof.Proof.Spec
import proofs.«112918_j11965778887252_1_alg».proof.Proof.LibBlockSum
import proofs.«112918_j11965778887252_1_alg».proof.Proof.LibColumn
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

section Pieces
variable {F : FTy → Type} [FloatOps F]

/-- The zero offsets of a whole-buffer access. -/
theorem hz : (![0, 0] : Fin 2 → Nat) = fun _ => 0 := funext fun a => by fin_cases a <;> rfl

/-- A middle point leaves in the accumulator the accumulating payload of what the accumulator held and the input block. -/
theorem sout_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x2048 .f32) (xs0 : Vec F S2048x1 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz]
  simp only [View.readAt_eq_ld, harg4.read_unread, harg2.read_unread, View.ld_unit_zero (S := S2048x1) hz, View.ld_unit_zero (S := S2048x2048) hz]

/-- A first point clears the accumulator, reads the cleared block back, and leaves the accumulating payload of the
    cleared block and the input block. -/
theorem sout_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x2048 .f32) :
    sout0_A_0 c i arg2 harg2 arg3 harg3 arg4 harg4 hc0 hc1 x0 = k0_pay2 k0_pay1 x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S2048x1) hz, View.readCov_unit_zero (S := S2048x1) _ hz]
  simp only [View.readAt_eq_ld, harg2.read_unread, View.ld_unit_zero (S := S2048x2048) hz]

/-- A last point copies into the output block what it has just left in the accumulator. -/
theorem out_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S2048x1) hz, View.readCov_unit_zero (S := S2048x1) _ hz]
  simp only [View.readAt_eq_ld, harg4.read_unread, harg2.read_unread, View.ld_unit_zero (S := S2048x1) hz, View.ld_unit_zero (S := S2048x2048) hz]

/-- A last point leaves in the accumulator the accumulating payload, as a middle point does. -/
theorem sout_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x2048 .f32) (xs0 : Vec F S2048x1 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S2048x1) hz]
  simp only [View.readAt_eq_ld, harg4.read_unread, harg2.read_unread, View.ld_unit_zero (S := S2048x1) hz, View.ld_unit_zero (S := S2048x2048) hz]

end Pieces

section Payload

open Idealize.ShloMosaic.ValueIdx

/-- The index a row sum inserts: coordinate `k` of the reduced axis beside row `r`. -/
theorem lift_row (h : S2048x2048.Reduces [1] S2048) (r : Fin 2048) (k : Fin 2048) :
    h.lift (ix1 r) k = ix2 r k := by
  funext a
  apply Fin.ext
  match a with
  | ⟨0, _⟩ => rfl
  | ⟨1, _⟩ => rfl

/-- The sum along a row of a block, as the reduction computes it over the extended reals. -/
theorem rowsum_apply (v4 : Vec Ideal S2048x2048 .f32) (h : S2048x2048.Reduces [1] S2048) (hφ : FKind.Formats .f32)
    (hacc : (0x00000000#32 : BitVec 32) = 0x00000000#32) (r : Fin 2048) :
    multiReduction (F := Ideal) .add [1] S2048 v4 0x00000000#32 h hφ hacc (ix1 r) = ∑ k : Fin 2048, v4 (ix2 r k) := by
  refine (Ideal.multiReduction_add_single v4 0x00000000#32 h hφ hacc (ix1 r)).trans ?_
  exact Finset.sum_congr rfl (fun k _ => congrArg v4 (lift_row h r k))

/-- The accumulating payload at row `r`: the old accumulator's entry plus the sum of row `r` of the block. -/
theorem pay2_apply (v3 : Vec Ideal S2048x1 .f32) (v4 : Vec Ideal S2048x2048 .f32) (r : Fin 2048) :
    k0_pay2 (F := Ideal) v3 v4 (ix2 r (0 : Fin 1)) = v3 (ix2 r (0 : Fin 1)) + ∑ k : Fin 2048, v4 (ix2 r k) := by
  unfold k0_pay2
  refine (congrFun (shapeCast_self _ _) (ix2 r (0 : Fin 1))).trans ?_
  refine (addf_apply _ _ _).trans ?_
  refine congrArg (v3 (ix2 r (0 : Fin 1)) + ·) ?_
  refine (Column.shapeCast_a_a1_apply _ _ r (0 : Fin 1)).trans ?_
  exact rowsum_apply v4 _ _ _ r

/-- The clearing payload is zero everywhere. -/
theorem pay1_apply (j : S2048x1.Idx) : k0_pay1 (F := Ideal) j = 0 := by
  unfold k0_pay1
  refine (congrFun (shapeCast_self _ _) j).trans ?_
  exact Ideal.ofBits_zero_f32

end Payload

section Region

open Idealize.ShloMosaic.ValueIdx

variable (V : (c : Dev nD) → (b : Ref sig .tc) → Buf (Elt Ideal) ((c : Thread nD τ).loc b)) (c : Dev nD)

/-- The printed block index maps over the grid: the input block of point `t` is block `(t / 8, t % 8)` of the
    adjacency matrix, the output block is block `(t / 8, 0)` of the degree column. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, win0_0.index t (0 : Fin 2) = t.val / 8 ∧ win0_0.index t (1 : Fin 2) = t.val % 8
    ∧ win0_1.index t (0 : Fin 2) = t.val / 8 ∧ win0_1.index t (1 : Fin 2) = 0)

/-- The part of row `i`'s sum that lies in column band `j` (bands of 2048 columns; the band number is taken
    modulo 8 so that the column is in range for every `j`). -/
def bandSum (A : (⟨2, ![16384, 16384]⟩ : Shape).Idx → EReal) (i : Fin 16384) (j : ℕ) : EReal :=
  ∑ k : Fin 2048, A (ix2 i ⟨(j % 8) * 2048 + k.val, by
    have := k.isLt; have := Nat.mod_lt j (show 0 < 8 by norm_num); omega⟩)

/-- A degree is the sum of its eight band parts. -/
theorem deg_eq_bands (A : (⟨2, ![16384, 16384]⟩ : Shape).Idx → EReal) (i : Fin 16384) :
    Cert.Gcn.deg A i = ∑ jj ∈ Finset.range 8, bandSum A i jj := by
  unfold Cert.Gcn.deg bandSum
  exact Cert.LibBlockSum.sum_blocks_range 8 2048 (by norm_num)
    (fun p : Fin (8 * 2048) => A (ix2 i ⟨p.val, by have := p.isLt; omega⟩))

/-- The sum of row `r` of the input block at point `t` is the band part `t % 8` of row `(t / 8) · 2048 + r`. -/
theorem iblk_rowsum (t : Fin cfg0.N) (r : Fin 2048) (i : Fin 16384) (hi : i.val = (t.val / 8) * 2048 + r.val)
    (x : Vec Ideal S2048x2048 .f32) (hx : x = iblk0 V c 0 t) :
    ∑ k : Fin 2048, x (ix2 r k) = bandSum (V c main_arg1) i (t.val % 8) := by
  subst hx
  unfold bandSum
  refine Finset.sum_congr rfl (fun k _ => ?_)
  unfold iblk0
  rw [View.read_apply]
  show V c main_arg1 _ = V c main_arg1 _
  congr 1
  funext a
  apply Fin.ext
  obtain ⟨e0, e1, -, -⟩ := idx_facts t
  match a with
  | ⟨0, _⟩ => show win0_0.index t (0 : Fin 2) * 2048 + 1 * r.val = i.val; rw [e0, hi]; omega
  | ⟨1, _⟩ => show win0_0.index t (1 : Fin 2) * 2048 + 1 * k.val = (t.val % 8 % 8) * 2048 + k.val; rw [e1, Nat.mod_mod]; omega

end Region

section Accumulation

open Idealize.ShloMosaic.ValueIdx

variable (V : (c : Dev nD) → (b : Ref sig .tc) → Buf (Elt Ideal) ((c : Thread nD τ).loc b)) (c : Dev nD)

/-- At the first column band the accumulator is left at the cleared block plus the row sums of the input block. -/
theorem acc_first (t : Fin cfg0.N) (h0 : t.val % 8 = 0) :
    (outsAt0 V c t.val t.isLt).2 = k0_pay2 k0_pay1 (iblk0 V c 0 t) := by
  have h1 : ¬t.val % 8 = 7 := by omega
  rw [outsAt0_A V c t h0 h1]
  dsimp only
  exact sout_A c (grid0.coords t) (ms0_0 t) (hs0_0 t) (ms0_1 t) (hs0_1 t) scM0_0 (Memref.isWhole_whole _)
    ((hcond0_0 t).mpr h0) (fun h => h1 ((hcond0_1 t).mp h)) (iblk0 V c 0 t)

/-- At every later column band it is left at what the point before left plus the row sums of the input block. -/
theorem acc_next (t : Fin cfg0.N) (h0 : ¬t.val % 8 = 0) :
    (outsAt0 V c t.val t.isLt).2
      = k0_pay2 (outsAt0 V c (t.val - 1) (Nat.lt_of_le_of_lt (Nat.sub_le _ _) t.isLt)).2 (iblk0 V c 0 t) := by
  by_cases h1 : t.val % 8 = 7
  · rw [outsAt0_C V c t h0 h1]
    dsimp only
    exact sout_C c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2
  · rw [outsAt0_B V c t h0 h1]
    dsimp only
    exact sout_B c (grid0.coords t) (ms0_0 t) (hs0_0 t) (ms0_1 t) (hs0_1 t) scM0_0 (Memref.isWhole_whole _)
      (fun h => h0 ((hcond0_0 t).mp h)) (fun h => h1 ((hcond0_1 t).mp h)) (iblk0 V c 0 t)
      (outsAt0 V c (t.val - 1) (Nat.lt_of_le_of_lt (Nat.sub_le _ _) t.isLt)).2

/-- At the last column band the output block receives what the accumulator is left at. -/
theorem out_last (t : Fin cfg0.N) (h1 : t.val % 8 = 7) :
    (outsAt0 V c t.val t.isLt).1 = (outsAt0 V c t.val t.isLt).2 := by
  have h0 : ¬t.val % 8 = 0 := by omega
  rw [outsAt0_C V c t h0 h1]
  dsimp only
  exact (out_C c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2).trans
    (sout_C c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2).symm

/-- THE RUNNING SUM: after point `n`, row `r` of the accumulator holds the band parts `0 … n % 8` of row
    `(n / 8) · 2048 + r` of the adjacency matrix. -/
theorem acc_eq (n : ℕ) : ∀ (hn : n < cfg0.N) (r : Fin 2048) (i : Fin 16384), i.val = (n / 8) * 2048 + r.val →
    (outsAt0 V c n hn).2 (ix2 r (0 : Fin 1)) = ∑ jj ∈ Finset.range (n % 8 + 1), bandSum (V c main_arg1) i jj := by
  induction n with
  | zero =>
    intro hn r i hi
    refine (congrFun (acc_first V c ⟨0, hn⟩ rfl) (ix2 r (0 : Fin 1))).trans ?_
    refine (pay2_apply _ _ r).trans ?_
    rw [pay1_apply, zero_add]
    refine (iblk_rowsum V c ⟨0, hn⟩ r i hi (iblk0 V c 0 ⟨0, hn⟩) rfl).trans ?_
    simp
  | succ m ih =>
    intro hn r i hi
    by_cases h0 : (m + 1) % 8 = 0
    · refine (congrFun (acc_first V c ⟨m + 1, hn⟩ h0) (ix2 r (0 : Fin 1))).trans ?_
      refine (pay2_apply _ _ r).trans ?_
      rw [pay1_apply, zero_add]
      refine (iblk_rowsum V c ⟨m + 1, hn⟩ r i hi (iblk0 V c 0 ⟨m + 1, hn⟩) rfl).trans ?_
      show bandSum (V c main_arg1) i ((m + 1) % 8) = _
      rw [h0, zero_add, Finset.sum_range_one]
    · refine (congrFun (acc_next V c ⟨m + 1, hn⟩ h0) (ix2 r (0 : Fin 1))).trans ?_
      refine (pay2_apply _ _ r).trans ?_
      have hm : (m + 1) % 8 = m % 8 + 1 := by omega
      rw [hm, Finset.sum_range_succ]
      refine congrArg₂ (· + ·) ?_ ?_
      · exact ih (Nat.lt_of_succ_lt hn) r i (by omega)
      · refine (iblk_rowsum V c ⟨m + 1, hn⟩ r i hi (iblk0 V c 0 ⟨m + 1, hn⟩) rfl).trans ?_
        show bandSum (V c main_arg1) i ((m + 1) % 8) = _
        rw [hm]

/-- So a point of the last column band leaves, in row `r` of the output block, the degree of row
    `(t / 8) · 2048 + r`. -/
theorem out_deg (t : Fin cfg0.N) (h1 : t.val % 8 = 7) (r : Fin 2048) (i : Fin 16384)
    (hi : i.val = (t.val / 8) * 2048 + r.val) :
    (outsAt0 V c t.val t.isLt).1 (ix2 r (0 : Fin 1)) = Cert.Gcn.deg (V c main_arg1) i := by
  rw [out_last V c t h1, acc_eq V c t.val t.isLt r i hi, h1, deg_eq_bands]

end Accumulation

section Array

open Idealize.ShloMosaic.ValueIdx

variable (V : (c : Dev nD) → (b : Ref sig .tc) → Buf (Elt Ideal) ((c : Thread nD τ).loc b)) (c : Dev nD)

/-- The degree column: entry `(i, 0)` is the degree of node `i`. -/
def degCol (A : (⟨2, ![16384, 16384]⟩ : Shape).Idx → EReal) : S16384x1.Idx → EReal :=
  fun j => Cert.Gcn.deg A (j 0)

/-- What a point of the last column band leaves in the output block, at any index `y` of the block: the degree of
    the row `(t / 8) · 2048 + y₀`. -/
theorem out_block (t : Fin cfg0.N) (h1 : t.val % 8 = 7) (y : S2048x1.Idx) (q : S16384x1.Idx)
    (hq : (q 0).val = (t.val / 8) * 2048 + (y 0).val) :
    (outsAt0 V c t.val t.isLt).1 y = degCol (V c main_arg1) q := by
  unfold degCol
  have hy : y = ix2 (y 0) (0 : Fin 1) := (eq_ix2 y).trans (congrArg (ix2 (y 0)) (Fin.ext (by have h : (y 1).val < 1 := (y 1).isLt; show (y 1).val = 0; omega)))
  exact (congrArg (outsAt0 V c t.val t.isLt).1 hy).trans (out_deg V c t h1 (y 0) (q 0) hq)

/-- What a point writes back is its block of any column `G` that the output block agrees with row by row: row `y₀`
    of the block is row `(t / 8) · 2048 + y₀` of the column. -/
theorem flushed_eq_of (t : Fin cfg0.N) (G : S16384x1.Idx → EReal)
    (hG : ∀ (y : S2048x1.Idx) (q : S16384x1.Idx), (q 0).val = (t.val / 8) * 2048 + (y 0).val →
      (outsAt0 V c t.val t.isLt).1 y = G q) :
    (dat0 V c).flushed 1 t = ((cfg0.win 1).blk t).view.read (Elt Ideal) G := by
  show (cfg0.win 1).cut (grid0.coords t) ((dat0 V c).after 1 t) = _
  rw [after0_1]
  funext j
  rw [View.read_apply]
  have e1 : (cfg0.win 1).cut (grid0.coords t) (outsAt0 V c t.val t.isLt).1 j
      = (outsAt0 V c t.val t.isLt).1 ((cfg0.win 1).xinj (grid0.coords t) j) := rfl
  rw [e1]
  have hq : ((((cfg0.win 1).blk t).view.emb j) 0).val
      = (t.val / 8) * 2048 + (((cfg0.win 1).xinj (grid0.coords t) j) 0).val := by
    obtain ⟨-, -, e2, -⟩ := idx_facts t
    show win0_1.index t (0 : Fin 2) * 2048 + 1 * (j 0).val = (t.val / 8) * 2048 + (j 0).val
    rw [e2]; omega
  generalize ((cfg0.win 1).blk t).view.emb j = Q at hq ⊢
  generalize (cfg0.win 1).xinj (grid0.coords t) j = Y at hq ⊢
  rw [hG Y Q hq]
  rfl

/-- WHAT A FLUSHING POINT WRITES BACK is its block of the degree column. -/
theorem flushed_eq (t : Fin cfg0.N) (hf : (cfg0.win 1).flush t = true) :
    (dat0 V c).flushed 1 t = ((cfg0.win 1).blk t).view.read (Elt Ideal) (degCol (V c main_arg1)) :=
  flushed_eq_of V c t (degCol (V c main_arg1)) (fun y q hq => out_block V c t ((flush0_1 t).mp hf) y q hq)

/-- An index of the degree column is in point `t`'s block iff each coordinate is in the block's range on its axis. -/
theorem mem_blk (t : Fin cfg0.N) (i : S16384x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- Every row of the degree column lies in the block of the last point of its row band. -/
theorem covered (i : S16384x1.Idx) :
    ∃ t : Fin cfg0.N, (cfg0.win 1).flush t = true ∧ i ∈ ((cfg0.win 1).blk t).view.set := by
  have hN : cfg0.N = 64 := N_0
  have hi0 : (i 0).val < 16384 := (i 0).isLt
  have hi1 : (i 1).val < 1 := (i 1).isLt
  let t : Fin cfg0.N := ⟨8 * ((i 0).val / 2048) + 7, by rw [hN]; omega⟩
  have htv : t.val = 8 * ((i 0).val / 2048) + 7 := rfl
  refine ⟨t, (flush0_1 t).mpr (by rw [htv]; omega), ?_⟩
  rw [mem_blk]
  obtain ⟨-, -, e2, e3⟩ := idx_facts t
  intro a
  match a with
  | ⟨0, _⟩ =>
    show win0_1.index t (0 : Fin 2) * 2048 ≤ (i 0).val ∧ (i 0).val < win0_1.index t (0 : Fin 2) * 2048 + 2048
    rw [e2, htv]; omega
  | ⟨1, _⟩ =>
    show win0_1.index t (1 : Fin 2) * 1 ≤ (i 1).val ∧ (i 1).val < win0_1.index t (1 : Fin 2) * 1 + 1
    rw [e3]; omega

/-- THE DEGREE ARRAY: after the degree kernel's region the output array holds, in row `i`, the degree of node `i`
    of the adjacency matrix the region was entered with. -/
theorem deg_array (i : Fin 16384) :
    (dat0 V c).arrAt 1 cfg0.N (ix2 i (0 : Fin 1)) = Cert.Gcn.deg (V c main_arg1) i :=
  congrFun ((dat0 V c).arrAt_eq_of_cover 1 (degCol (V c main_arg1)) (flushed_eq V c) (covered)) (ix2 i (0 : Fin 1))

end Array

end Cert.KernelIdeal.Val

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.Val.Pay1.lean ====
/-
  The second kernel's three stored values, each read at one entry over the extended reals.

  The accumulator's reset stores zero. The accumulator's update stores, at `(r, q)`, the old entry plus
  `∑ k, a (r, k) * (x (k, q) * d (k))`: the block `a` of the adjacency matrix times the block of `x` whose row `k` has
  been scaled by the column entry `d (k)` (the two changes of float format are the identity on extended reals and
  the product into a zero accumulator is the plain sum). The output's store holds, at `(r, o)`,
  `∑ f, (acc (r, f) * d' (r)) * w (f, o)`: row `r` of the accumulator scaled by its column entry, times the weights.
-/
import proofs.«112918_j11965778887252_1_alg».proof.Proof.Gen.KernelIdeal.Skeleton
import proofs.«112918_j11965778887252_1_alg».proof.Proof.LibDenseBlock
import proofs.«112918_j11965778887252_1_alg».proof.Proof.LibColumn
import Idealize.ShloMosaic.Lib.ValueIdx
import Idealize.ShloMosaic.Lib.Pipeline.Value

noncomputable section

open scoped BigOperators

namespace Cert.KernelIdeal.Val

open Cert.KernelIdeal Cert.KernelIdeal.Gen Idealize.ShloMosaic Idealize.ShloMosaic.ValueIdx

/-- The reset value is zero everywhere. -/
theorem k1_pay1_apply (r : Fin 2048) (q : Fin 64) : k1_pay1 (F := Ideal) (ix2 r q) = 0 := by
  unfold k1_pay1
  rw [shapeCast_self]
  exact Ideal.ofBits_zero_f32

/-- The accumulator's update at `(r, q)`: the old entry plus the block product's entry. -/
theorem k1_pay2_apply (v3 : Vec Ideal S2048x64 .f32) (v4 : Vec Ideal S2048x1 .f32) (v9 : Vec Ideal S2048x2048 .f32)
    (v11 : Vec Ideal S2048x64 .f32) (r : Fin 2048) (q : Fin 64) :
    k1_pay2 v3 v4 v9 v11 (ix2 r q)
      = v11 (ix2 r q) + ∑ k : Fin 2048, v9 (ix2 r k) * (v3 (ix2 k q) * v4 (ix2 k (0 : Fin 1))) := by
  unfold k1_pay2
  rw [shapeCast_self]
  refine (addf_apply _ _ _).trans ?_
  refine congrArg (fun z => v11 (ix2 r q) + z) ?_
  refine (DenseBlock.matmul_zero_apply dot_S2048x2048_S2048x64_S2048x64_1_0_0_1_n_n.wf _ _ r q).trans ?_
  refine Finset.sum_congr rfl fun k _ => ?_
  refine congrArg (fun z => v9 (ix2 r k) * z) ?_
  refine (mulf_apply _ _ _).trans ?_
  refine congrArg (fun z => v3 (ix2 k q) * z) ?_
  refine (Column.broadcastTo_a1_ab_apply _ _ k q).trans ?_
  rw [shapeCast_self]

/-- The output's store at `(r, o)`: the scaled accumulator row times the weights. -/
theorem k1_pay3_apply (v20 : Vec Ideal S2048x64 .f32) (v21 : Vec Ideal S2048x1 .f32) (v26 : Vec Ideal S64x64 .f32)
    (r : Fin 2048) (o : Fin 64) :
    k1_pay3 v20 v21 v26 (ix2 r o)
      = ∑ f : Fin 64, (v20 (ix2 r f) * v21 (ix2 r (0 : Fin 1))) * v26 (ix2 f o) := by
  unfold k1_pay3
  refine (DenseBlock.matmul_zero_apply dot_S2048x64_S64x64_S2048x64_1_0_0_1_n_n.wf _ _ r o).trans ?_
  refine Finset.sum_congr rfl fun f _ => ?_
  refine congrArg (fun z => z * v26 (ix2 f o)) ?_
  refine (mulf_apply _ _ _).trans ?_
  refine congrArg (fun z => v20 (ix2 r f) * z) ?_
  refine (Column.broadcastTo_a1_ab_apply _ _ r f).trans ?_
  rw [shapeCast_self]

end Cert.KernelIdeal.Val

end
-- ==== Proof.Val.Value1.lean ====
/-
  The second kernel region's value over the extended reals: what its output array holds after the run, entry by entry.

  The grid's 64 points run through 8 bands of rows; within band `b` the 8 points `8 b + s` visit the column blocks
  `s = 0 … 7`. At the band's first point the accumulator is reset to zero and the first block product is added; every
  later point adds its own block product; the band's last point also stores the output block: the accumulator's rows
  scaled by the row factor, times the weights. Addition of extended reals is commutative and associative, so the
  eight block sums are the one sum over all 16384 columns.
-/
import proofs.«112918_j11965778887252_1_alg».proof.Proof.HandKernelIdeal.R1
import proofs.«112918_j11965778887252_1_alg».proof.Proof.Val.Pay1
import proofs.«112918_j11965778887252_1_alg».proof.Proof.LibBlockSum
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem Idealize.ShloMosaic.Tactic
open Idealize.ShloMosaic.Pipeline (Dat)

section Pieces
variable {F : FTy → Type} [FloatOps F]

theorem hz1 : (![0, 0] : Fin 2 → Nat) = fun _ => 0 := funext fun a => by fin_cases a <;> rfl

/-- Case A leaves in the accumulator its second whole store: the update of the zero block the first store put there. -/
theorem sout1_A_0_eq (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S2048x1 .f32) (x1 : Vec F S2048x1 .f32) (x2 : Vec F S2048x2048 .f32) (x3 : Vec F S2048x64 .f32) (x4 : Vec F S64x64 .f32) :
    sout1_A_0 c i arg2 harg2 arg3 harg3 arg4 harg4 arg5 harg5 arg6 harg6 arg7 harg7 arg8 harg8 hc0 hc1 x0 x1 x2 x3 x4 = k1_pay2 x3 x1 x2 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  try sl_unfold_words
  rw [View.canon_cons_unit_zero (S := S2048x64) hz1, View.readCov_unit_zero (S := S2048x64) _ hz1]
  simp only [View.readAt_eq_ld, harg2.read_unread, harg3.read_unread, harg4.read_unread, harg5.read_unread, harg6.read_unread, harg7.read_unread, harg8.read_unread, View.ld_unit_zero (S := S2048x64) hz1, View.ld_unit_zero (S := S2048x1) hz1, View.ld_unit_zero (S := S2048x2048) hz1, View.ld_unit_zero (S := S64x64) hz1]

/-- Case B leaves in the accumulator its one whole store: the update of what the point before left. -/
theorem sout1_B_0_eq (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    sout1_B_0 c i arg2 harg2 arg3 harg3 arg4 harg4 arg5 harg5 arg6 harg6 arg7 harg7 arg8 harg8 hc0 hc1 x0 x1 x2 x3 x4 xs0 = k1_pay2 x3 x1 x2 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero hz1]
  simp only [View.readAt_eq_ld, harg2.read_unread, harg3.read_unread, harg4.read_unread, harg5.read_unread, harg6.read_unread, harg7.read_unread, harg8.read_unread, View.ld_unit_zero (S := S2048x64) hz1, View.ld_unit_zero (S := S2048x1) hz1, View.ld_unit_zero (S := S2048x2048) hz1, View.ld_unit_zero (S := S64x64) hz1]

/-- Case C leaves in the accumulator the same update. -/
theorem sout1_C_0_eq (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    sout1_C_0 c i arg2 harg2 arg3 harg3 arg4 harg4 arg5 harg5 arg6 harg6 arg7 harg7 arg8 harg8 hc0 hc1 x0 x1 x2 x3 x4 xs0 = k1_pay2 x3 x1 x2 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz1]
  simp only [View.readAt_eq_ld, harg2.read_unread, harg3.read_unread, harg4.read_unread, harg5.read_unread, harg6.read_unread, harg7.read_unread, harg8.read_unread, View.ld_unit_zero (S := S2048x64) hz1, View.ld_unit_zero (S := S2048x1) hz1, View.ld_unit_zero (S := S2048x2048) hz1, View.ld_unit_zero (S := S64x64) hz1]

/-- Case C leaves in the output's staging buffer its one whole store: the scaled accumulator, as updated at this point,
    times the weights. -/
theorem out1_C_5_eq (c : Dev nD) (i : grid1.Coords) (arg2 : Memref sig .tc .vmem S2048x1 .f32) (harg2 : arg2.IsWhole) (arg3 : Memref sig .tc .vmem S2048x1 .f32) (harg3 : arg3.IsWhole) (arg4 : Memref sig .tc .vmem S2048x2048 .f32) (harg4 : arg4.IsWhole) (arg5 : Memref sig .tc .vmem S2048x64 .f32) (harg5 : arg5.IsWhole) (arg6 : Memref sig .tc .vmem S64x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S2048x1 .f32) (x1 : Vec F S2048x1 .f32) (x2 : Vec F S2048x2048 .f32) (x3 : Vec F S2048x64 .f32) (x4 : Vec F S64x64 .f32) (xs0 : Vec F S2048x64 .f32) :
    out1_C_5 c i arg2 harg2 arg3 harg3 arg4 harg4 arg5 harg5 arg6 harg6 arg7 harg7 arg8 harg8 hc0 hc1 x0 x1 x2 x3 x4 xs0 = k1_pay3 (k1_pay2 x3 x1 x2 xs0) x0 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz1]
  simp only [View.readCov_unit_zero (S := S2048x64) _ hz1, View.readAt_eq_ld, harg2.read_unread, harg3.read_unread, harg4.read_unread, harg5.read_unread, harg6.read_unread, harg7.read_unread, harg8.read_unread, View.ld_unit_zero (S := S2048x64) hz1, View.ld_unit_zero (S := S2048x1) hz1, View.ld_unit_zero (S := S2048x2048) hz1, View.ld_unit_zero (S := S64x64) hz1]

end Pieces

/-! ## The arrays and the blocks the windows read, at explicit coordinates -/

section Blocks
variable {F : FTy → Type} [FloatOps F]
variable (V : (c : Dev nD) → (b : Ref sig .tc) → Buf (Elt F) ((c : Thread nD τ).loc b))

/-- The arrays the region reads, as the region finds them: the row factor, the column factor, the adjacency matrix,
    the features, the weights. -/
abbrev aDr (c : Dev nD) : Vec F S16384x1 .f32 := V c main_v6
abbrev aDc (c : Dev nD) : Vec F S16384x1 .f32 := V c main_v7
abbrev aA (c : Dev nD) : Vec F S16384x16384 .f32 := V c main_arg1
abbrev aX (c : Dev nD) : Vec F S16384x64 .f32 := V c main_arg0
abbrev aW (c : Dev nD) : Vec F S64x64 .f32 := V c main_arg2

/-- Their blocks at point `t`. -/
abbrev bDr (c : Dev nD) (t : Fin cfg1.N) : Vec F S2048x1 .f32 := iblk1 V c 0 t
abbrev bDc (c : Dev nD) (t : Fin cfg1.N) : Vec F S2048x1 .f32 := iblk1 V c 1 t
abbrev bA (c : Dev nD) (t : Fin cfg1.N) : Vec F S2048x2048 .f32 := iblk1 V c 2 t
abbrev bX (c : Dev nD) (t : Fin cfg1.N) : Vec F S2048x64 .f32 := iblk1 V c 3 t
abbrev bW (c : Dev nD) (t : Fin cfg1.N) : Vec F S64x64 .f32 := iblk1 V c 4 t

/-- The grid has 64 points. -/
theorem tlt1 (t : Fin cfg1.N) : t.val < 64 := lt_of_lt_of_eq t.isLt (show cfg1.N = 64 from N_1)

/-- The printed index maps, decided over the grid: at point `t` the row band is `t / 8` and the column block `t % 8`. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, _)

/-- The row factor's block at point `t`: rows `2048 (t / 8) + r`. -/
theorem bDr_apply (c : Dev nD) (t : Fin cfg1.N) (r : Fin 2048) (z : Fin 1) (I : Fin 16384) (hI : I.val = 2048 * (t.val / 8) + r.val) :
    bDr V c t (ix2 r z) = aDr V c (ix2 I (0 : Fin 1)) := by
  obtain ⟨e00, e01, e10, e11, e20, e21, e30, e31, e40, e41, e50, e51⟩ := idx1 t
  unfold bDr aDr iblk1
  rw [View.read_apply]
  show V c _ _ = V c _ _
  congr 1
  funext a; apply Fin.ext
  match a with
  | ⟨0, _⟩ => show win1_0.index t (0 : Fin 2) * 2048 + 1 * r.val = I.val; rw [e00, hI]; omega
  | ⟨1, _⟩ => show win1_0.index t (1 : Fin 2) * 1 + 1 * z.val = 0; rw [e01]; omega

/-- The column factor's block at point `t`: rows `2048 (t % 8) + k`. -/
theorem bDc_apply (c : Dev nD) (t : Fin cfg1.N) (k : Fin 2048) (z : Fin 1) (K : Fin 16384) (hK : K.val = 2048 * (t.val % 8) + k.val) :
    bDc V c t (ix2 k z) = aDc V c (ix2 K (0 : Fin 1)) := by
  obtain ⟨e00, e01, e10, e11, e20, e21, e30, e31, e40, e41, e50, e51⟩ := idx1 t
  unfold bDc aDc iblk1
  rw [View.read_apply]
  show V c _ _ = V c _ _
  congr 1
  funext a; apply Fin.ext
  match a with
  | ⟨0, _⟩ => show win1_1.index t (0 : Fin 2) * 2048 + 1 * k.val = K.val; rw [e10, hK]; omega
  | ⟨1, _⟩ => show win1_1.index t (1 : Fin 2) * 1 + 1 * z.val = 0; rw [e11]; omega

/-- The adjacency matrix's block at point `t`: rows `2048 (t / 8) + r`, columns `2048 (t % 8) + k`. -/
theorem bA_apply (c : Dev nD) (t : Fin cfg1.N) (r k : Fin 2048) (I K : Fin 16384) (hI : I.val = 2048 * (t.val / 8) + r.val) (hK : K.val = 2048 * (t.val % 8) + k.val) :
    bA V c t (ix2 r k) = aA V c (ix2 I K) := by
  obtain ⟨e00, e01, e10, e11, e20, e21, e30, e31, e40, e41, e50, e51⟩ := idx1 t
  unfold bA aA iblk1
  rw [View.read_apply]
  show V c _ _ = V c _ _
  congr 1
  funext a; apply Fin.ext
  match a with
  | ⟨0, _⟩ => show win1_2.index t (0 : Fin 2) * 2048 + 1 * r.val = I.val; rw [e20, hI]; omega
  | ⟨1, _⟩ => show win1_2.index t (1 : Fin 2) * 2048 + 1 * k.val = K.val; rw [e21, hK]; omega

/-- The features' block at point `t`: rows `2048 (t % 8) + k`. -/
theorem bX_apply (c : Dev nD) (t : Fin cfg1.N) (k : Fin 2048) (q : Fin 64) (K : Fin 16384) (hK : K.val = 2048 * (t.val % 8) + k.val) :
    bX V c t (ix2 k q) = aX V c (ix2 K q) := by
  obtain ⟨e00, e01, e10, e11, e20, e21, e30, e31, e40, e41, e50, e51⟩ := idx1 t
  unfold bX aX iblk1
  rw [View.read_apply]
  show V c _ _ = V c _ _
  congr 1
  funext a; apply Fin.ext
  match a with
  | ⟨0, _⟩ => show win1_3.index t (0 : Fin 2) * 2048 + 1 * k.val = K.val; rw [e30, hK]; omega
  | ⟨1, _⟩ => show win1_3.index t (1 : Fin 2) * 64 + 1 * q.val = q.val; rw [e31]; omega

/-- The weights' block at every point: the whole array. -/
theorem bW_apply (c : Dev nD) (t : Fin cfg1.N) (f o : Fin 64) :
    bW V c t (ix2 f o) = aW V c (ix2 f o) := by
  obtain ⟨e00, e01, e10, e11, e20, e21, e30, e31, e40, e41, e50, e51⟩ := idx1 t
  unfold bW aW iblk1
  rw [View.read_apply]
  show V c _ _ = V c _ _
  congr 1
  funext a; apply Fin.ext
  match a with
  | ⟨0, _⟩ => show win1_4.index t (0 : Fin 2) * 64 + 1 * f.val = f.val; rw [e40]; omega
  | ⟨1, _⟩ => show win1_4.index t (1 : Fin 2) * 64 + 1 * o.val = o.val; rw [e41]; omega

/-! ## The accumulator as a fold over a band's points -/

/-- What the accumulator holds after point `n`. -/
def acc1 (c : Dev nD) (n : ℕ) (h : n < cfg1.N) : Vec F S2048x64 .f32 := (outsAt1 V c n h).2

/-- The reset: what the band's first point leaves in the accumulator, over its input blocks. -/
def reset1 (c : Dev nD) (n : ℕ) (h : n < cfg1.N) : Vec F S2048x64 .f32 :=
  k1_pay2 (bX V c ⟨n, h⟩) (bDc V c ⟨n, h⟩) (bA V c ⟨n, h⟩) (k1_pay1 (F := F))

/-- The step: what a later point leaves in the accumulator, over what the point before left and its input blocks. -/
def step1 (c : Dev nD) (n : ℕ) (h : n < cfg1.N) (acc : Vec F S2048x64 .f32) : Vec F S2048x64 .f32 :=
  k1_pay2 (bX V c ⟨n, h⟩) (bDc V c ⟨n, h⟩) (bA V c ⟨n, h⟩) acc

/-- At a band's first point the accumulator is the reset. -/
theorem acc1_reset (c : Dev nD) (n : ℕ) (h : n < cfg1.N) (hn : n % 8 = 0) : acc1 V c n h = reset1 V c n h := by
  have h2 := congrArg Prod.snd (outsAt1_A V c ⟨n, h⟩ hn (by (try dsimp only); omega))
  dsimp only at h2
  unfold acc1 reset1
  exact h2.trans (sout1_A_0_eq (F := F) ..)

/-- At every other point it is the step over what the point before left. -/
theorem acc1_step (c : Dev nD) (n : ℕ) (h : n + 1 < cfg1.N) (hn : ¬(n + 1) % 8 = 0) :
    acc1 V c (n + 1) h = step1 V c (n + 1) h (acc1 V c n (Nat.lt_of_succ_lt h)) := by
  by_cases h7 : (n + 1) % 8 = 7
  · have h2 := congrArg Prod.snd (outsAt1_C V c ⟨n + 1, h⟩ hn h7)
    dsimp only at h2
    simp only [Nat.add_sub_cancel] at h2
    unfold acc1 step1
    exact h2.trans (sout1_C_0_eq (F := F) ..)
  · have h2 := congrArg Prod.snd (outsAt1_B V c ⟨n + 1, h⟩ hn h7)
    dsimp only at h2
    simp only [Nat.add_sub_cancel] at h2
    unfold acc1 step1
    exact h2.trans (sout1_B_0_eq (F := F) ..)

/-- What the accumulator holds after point `8 b + j` is the fold over the band's points up to it: by the case
    equations, never by the grid's size. -/
theorem acc1_fold (c : Dev nD) (b : ℕ) : ∀ (j : ℕ) (_ : j < 8) (h : 8 * b + j < cfg1.N),
    acc1 V c (8 * b + j) h = Pipeline.accAt (reset1 V c) (step1 V c) (8 * b) j h :=
  Pipeline.eq_accAt (acc1 V c) 8 (reset1 V c) (step1 V c) (acc1_reset V c) (acc1_step V c) b

/-- At a band's last point the output's staging buffer holds the stored block: the accumulator as this point leaves it,
    scaled by the row factor's block, times the weights. -/
theorem out1_eq (c : Dev nD) (t : Fin cfg1.N) (h7 : t.val % 8 = 7) :
    (outsAt1 V c t.val t.isLt).1 = k1_pay3 (acc1 V c t.val t.isLt) (bDr V c t) (bW V c t) := by
  have h1 := congrArg Prod.fst (outsAt1_C V c t (by omega) h7)
  have h2 := congrArg Prod.snd (outsAt1_C V c t (by omega) h7)
  dsimp only at h1 h2
  unfold acc1
  exact h1.trans ((out1_C_5_eq (F := F) ..).trans (congrArg (fun z => k1_pay3 z (bDr V c t) (bW V c t))
    ((sout1_C_0_eq (F := F) ..).symm.trans h2.symm)))

end Blocks

/-! ## Over the extended reals -/

section AtIdeal
variable (V : (c : Dev nD) → (b : Ref sig .tc) → Buf (Elt Ideal) ((c : Thread nD τ).loc b))

/-- Point `n`'s addend at `(r, q)`: its block product's entry (zero past the grid, where it is never read). -/
def addend1RQ (c : Dev nD) (n : ℕ) (r : Fin 2048) (q : Fin 64) : Ideal .f32 :=
  if h : n < cfg1.N then
    ∑ k : Fin 2048, bA V c ⟨n, h⟩ (ix2 r k) * (bX V c ⟨n, h⟩ (ix2 k q) * bDc V c ⟨n, h⟩ (ix2 k (0 : Fin 1)))
  else 0

/-- The same as a function of the block's index. -/
def addend1 (c : Dev nD) (n : ℕ) (i : S2048x64.Idx) : Ideal .f32 :=
  addend1RQ V c n ⟨(i 0).val, idx2_lt0 i⟩ ⟨(i 1).val, idx2_lt1 i⟩

/-- After a band's last point the accumulator holds, at `(r, q)`, the sum of the band's eight addends. -/
theorem acc1_band (c : Dev nD) (b : ℕ) (hb : 8 * b + 7 < cfg1.N) (r : Fin 2048) (q : Fin 64) :
    acc1 V c (8 * b + 7) hb (ix2 r q) = ∑ s ∈ Finset.range 8, addend1RQ V c (8 * b + s) r q := by
  rw [acc1_fold V c b 7 (by norm_num) hb]
  refine (Pipeline.accAt_add_apply (ι := S2048x64.Idx) (β := Ideal .f32) (reset1 V c) (step1 V c) (fun _ => 0) (addend1 V c) (8 * b) 7
    (fun h i => ?ha) (fun n h acc i _ _ => ?hg) 7 (le_refl 7) hb (ix2 r q)).trans ?fin
  case ha =>
    obtain ⟨r', q', rfl⟩ : ∃ (r' : Fin 2048) (q' : Fin 64), i = ix2 r' q' := ⟨i 0, i 1, eq_ix2 i⟩
    show k1_pay2 (F := Ideal) _ _ _ _ (ix2 r' q') = 0 + addend1RQ V c (8 * b) r' q'
    rw [k1_pay2_apply, k1_pay1_apply]
    unfold addend1RQ
    rw [dif_pos h]
  case hg =>
    obtain ⟨r', q', rfl⟩ : ∃ (r' : Fin 2048) (q' : Fin 64), i = ix2 r' q' := ⟨i 0, i 1, eq_ix2 i⟩
    show k1_pay2 (F := Ideal) _ _ _ _ (ix2 r' q') = acc (ix2 r' q') + addend1RQ V c n r' q'
    rw [k1_pay2_apply]
    unfold addend1RQ
    rw [dif_pos h]
  case fin =>
    show 0 + ∑ s ∈ Finset.range 8, addend1RQ V c (8 * b + s) r q = _
    rw [zero_add]

/-- Row `r` of band `b`, and likewise column `k` of column block `s`. -/
abbrev bandRow (b : ℕ) (hb : b < 8) (r : Fin 2048) : Fin 16384 := ⟨2048 * b + r.val, by omega⟩

/-- A point's addend in the arrays' own coordinates. -/
theorem addend1_coords (c : Dev nD) (b s : ℕ) (hb : b < 8) (hs : s < 8) (r : Fin 2048) (q : Fin 64) :
    addend1RQ V c (8 * b + s) r q
      = ∑ kk : Fin 2048, aA V c (ix2 (bandRow b hb r) (bandRow s hs kk))
          * (aX V c (ix2 (bandRow s hs kk) q) * aDc V c (ix2 (bandRow s hs kk) (0 : Fin 1))) := by
  have hN : 8 * b + s < cfg1.N := by rw [show cfg1.N = 64 from N_1]; omega
  unfold addend1RQ
  rw [dif_pos hN]
  refine Finset.sum_congr rfl fun kk _ => ?_
  rw [bA_apply V c ⟨8 * b + s, hN⟩ r kk (bandRow b hb r) (bandRow s hs kk) (by show 2048 * b + r.val = 2048 * ((8 * b + s) / 8) + r.val; omega) (by show 2048 * s + kk.val = 2048 * ((8 * b + s) % 8) + kk.val; omega),
    bX_apply V c ⟨8 * b + s, hN⟩ kk q (bandRow s hs kk) (by show 2048 * s + kk.val = 2048 * ((8 * b + s) % 8) + kk.val; omega),
    bDc_apply V c ⟨8 * b + s, hN⟩ kk (0 : Fin 1) (bandRow s hs kk) (by show 2048 * s + kk.val = 2048 * ((8 * b + s) % 8) + kk.val; omega)]

/-- A sum over the 16384 columns as 8 column blocks of 2048. -/
theorem sum_cols {M : Type*} [AddCommMonoid M] (f : Fin 16384 → M) :
    ∑ k : Fin 16384, f k = ∑ s ∈ Finset.range 8, ∑ kk : Fin 2048, f ⟨(s % 8) * 2048 + kk.val, by omega⟩ :=
  Cert.LibBlockSum.sum_blocks_range 8 2048 (by norm_num) f

/-- After a band's last point the accumulator holds, at `(r, q)`, row `2048 b + r` of the adjacency matrix times
    column `q` of the features scaled row by row by the column factor: one sum over all 16384 columns. -/
theorem acc1_band_sum (c : Dev nD) (b : ℕ) (hb : b < 8) (h : 8 * b + 7 < cfg1.N) (r : Fin 2048) (q : Fin 64) :
    acc1 V c (8 * b + 7) h (ix2 r q)
      = ∑ k : Fin 16384, aA V c (ix2 (bandRow b hb r) k) * (aX V c (ix2 k q) * aDc V c (ix2 k (0 : Fin 1))) := by
  rw [acc1_band V c b h r q, sum_cols]
  refine Finset.sum_congr rfl fun s hs => ?_
  have hs8 : s < 8 := Finset.mem_range.mp hs
  rw [addend1_coords V c b s hb hs8 r q]
  refine Finset.sum_congr rfl fun kk _ => ?_
  have e : bandRow s hs8 kk = ⟨(s % 8) * 2048 + kk.val, by omega⟩ := Fin.ext (by show 2048 * s + kk.val = (s % 8) * 2048 + kk.val; omega)
  rw [e]

/-! ## The output array -/

/-- What the output array ends holding at `(I, o)`. -/
def G1RQ (c : Dev nD) (I : Fin 16384) (o : Fin 64) : Ideal .f32 :=
  ∑ f : Fin 64, ((∑ k : Fin 16384, aA V c (ix2 I k) * (aX V c (ix2 k f) * aDc V c (ix2 k (0 : Fin 1))))
    * aDr V c (ix2 I (0 : Fin 1))) * aW V c (ix2 f o)

/-- The same as contents of the output array. -/
def G1 (c : Dev nD) : Vec Ideal S16384x64 .f32 :=
  fun j => G1RQ V c ⟨(j 0).val, idx2_lt0 j⟩ ⟨(j 1).val, idx2_lt1 j⟩

/-- What a band's last point writes back is its block of `G1`. -/
theorem flushed1_eq (c : Dev nD) (t : Fin cfg1.N) (hf : (cfg1.win 5).flush t = true) :
    (dat1 V c).flushed 5 t = ((cfg1.win 5).blk t).view.read (Elt Ideal) (G1 V c) := by
  have h7 : t.val % 8 = 7 := (flush1_5 t).mp hf
  have hN := tlt1 t
  obtain ⟨e00, e01, e10, e11, e20, e21, e30, e31, e40, e41, e50, e51⟩ := idx1 t
  show (cfg1.win 5).cut (grid1.coords t) ((dat1 V c).after 5 t) = _
  rw [after1_5, out1_eq V c t h7]
  funext y
  have hy0 : (y 0).val < 2048 := (y 0).isLt
  have hy1 : (y 1).val < 64 := (y 1).isLt
  have hbd : t.val / 8 < 8 := by omega
  have hx : (cfg1.win 5).xinj (grid1.coords t) y = ix2 (⟨(y 0).val, hy0⟩ : Fin 2048) (⟨(y 1).val, hy1⟩ : Fin 64) := by
    funext a; apply Fin.ext
    match a with
    | ⟨0, _⟩ => rfl
    | ⟨1, _⟩ => rfl
  have hb0 : (((cfg1.win 5).blk t).view.emb y 0).val = win1_5.index t (0 : Fin 2) * 2048 + 1 * (y 0).val := rfl
  have hb1 : (((cfg1.win 5).blk t).view.emb y 1).val = win1_5.index t (1 : Fin 2) * 64 + 1 * (y 1).val := rfl
  have hI : (⟨(((cfg1.win 5).blk t).view.emb y 0).val, idx2_lt0 (n0 := 16384) (n1 := 64) (((cfg1.win 5).blk t).view.emb y)⟩ : Fin 16384) = bandRow (t.val / 8) hbd ⟨(y 0).val, hy0⟩ :=
    Fin.ext (by show (((cfg1.win 5).blk t).view.emb y 0).val = 2048 * (t.val / 8) + (y 0).val; rw [hb0, e50]; omega)
  have hO : (⟨(((cfg1.win 5).blk t).view.emb y 1).val, idx2_lt1 (n0 := 16384) (n1 := 64) (((cfg1.win 5).blk t).view.emb y)⟩ : Fin 64) = ⟨(y 1).val, hy1⟩ :=
    Fin.ext (by show (((cfg1.win 5).blk t).view.emb y 1).val = (y 1).val; rw [hb1, e51]; omega)
  show (k1_pay3 (F := Ideal) (acc1 V c t.val t.isLt) (bDr V c t) (bW V c t) ((cfg1.win 5).xinj (grid1.coords t) y) : Ideal .f32)
    = G1RQ V c ⟨(((cfg1.win 5).blk t).view.emb y 0).val, _⟩ ⟨(((cfg1.win 5).blk t).view.emb y 1).val, _⟩
  rw [hx, k1_pay3_apply, hI, hO]
  unfold G1RQ
  refine Finset.sum_congr rfl fun f _ => ?_
  have key : ∀ (u : ℕ) (hu : u < cfg1.N), u = t.val → acc1 V c u hu = acc1 V c t.val t.isLt := by
    intro u hu e; subst e; rfl
  have hu : 8 * (t.val / 8) + 7 < cfg1.N := lt_of_lt_of_eq (by omega : 8 * (t.val / 8) + 7 < 64) (show cfg1.N = 64 from N_1).symm
  rw [← key (8 * (t.val / 8) + 7) hu (by omega), acc1_band_sum V c (t.val / 8) hbd hu,
    bDr_apply V c t ⟨(y 0).val, hy0⟩ (0 : Fin 1) (bandRow (t.val / 8) hbd ⟨(y 0).val, hy0⟩) rfl,
    bW_apply V c t f ⟨(y 1).val, hy1⟩]

/-- An index of the output array is in point `t`'s block iff each coordinate is in the block's range on its axis. -/
theorem mem_blk1 (t : Fin cfg1.N) (i : S16384x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v8).slice (win1_5.rect t)).set ↔ _
  rw [View.set_slice_whole, Rect.mem_set_unit]
  exact Iff.rfl

/-- Every index of the output array is in the block some band's last point writes back: row `i`'s band is `i / 2048`. -/
theorem cover1 (i : S16384x64.Idx) : ∃ t : Fin cfg1.N, (cfg1.win 5).flush t = true ∧ i ∈ ((cfg1.win 5).blk t).view.set := by
  have hi0 : (i 0).val < 16384 := (i 0).isLt
  have hi1 : (i 1).val < 64 := (i 1).isLt
  have hlt : 8 * ((i 0).val / 2048) + 7 < cfg1.N := by rw [show cfg1.N = 64 from N_1]; omega
  refine ⟨⟨8 * ((i 0).val / 2048) + 7, hlt⟩, (flush1_5 _).mpr (by show (8 * ((i 0).val / 2048) + 7) % 8 = 7; omega), ?_⟩
  obtain ⟨e00, e01, e10, e11, e20, e21, e30, e31, e40, e41, e50, e51⟩ := idx1 ⟨8 * ((i 0).val / 2048) + 7, hlt⟩
  rw [mem_blk1]
  intro a
  match a with
  | ⟨0, _⟩ =>
    show win1_5.index ⟨8 * ((i 0).val / 2048) + 7, hlt⟩ (0 : Fin 2) * 2048 ≤ (i 0).val ∧ (i 0).val < win1_5.index ⟨8 * ((i 0).val / 2048) + 7, hlt⟩ (0 : Fin 2) * 2048 + 2048
    rw [e50]; show (8 * ((i 0).val / 2048) + 7) / 8 * 2048 ≤ (i 0).val ∧ (i 0).val < (8 * ((i 0).val / 2048) + 7) / 8 * 2048 + 2048; omega
  | ⟨1, _⟩ =>
    show win1_5.index ⟨8 * ((i 0).val / 2048) + 7, hlt⟩ (1 : Fin 2) * 64 ≤ (i 1).val ∧ (i 1).val < win1_5.index ⟨8 * ((i 0).val / 2048) + 7, hlt⟩ (1 : Fin 2) * 64 + 64
    rw [e51]; omega

/-- The output array after the run, as a vector of extended reals. -/
abbrev outArr1 (c : Dev nD) : Vec Ideal S16384x64 .f32 := (dat1 (F := Ideal) V c).arrAt 5 cfg1.N

/-- It is `G1` (the bands' blocks tile it). -/
theorem final1 (c : Dev nD) : outArr1 V c = G1 V c :=
  (dat1 V c).arrAt_eq_of_cover 5 (G1 V c) (fun t hf => flushed1_eq V c t hf) (fun i => cover1 i)

/-- THE OUTPUT ARRAY, entry by entry: `((A · (x scaled row by row by the column factor)) scaled row by row by the row
    factor) · W`. -/
theorem out_array (c : Dev nD) (i : Fin 16384) (o : Fin 64) :
    outArr1 V c (ix2 i o)
      = ∑ f : Fin 64, ((∑ k : Fin 16384, aA V c (ix2 i k) * (aX V c (ix2 k f) * aDc V c (ix2 k (0 : Fin 1))))
          * aDr V c (ix2 i (0 : Fin 1))) * aW V c (ix2 f o) := by
  rw [final1 V c]
  rfl

end AtIdeal

end Cert.KernelIdeal.Val

end
-- ==== Proof.Val.KerValue.lean ====
/-
  The kernel program's result, as one function of its three argument arrays.

  The second kernel's output array holds, at `(i, o)`, `∑ f, ((∑ k, A i k * (x k f * d k)) * d i) * W f o` of the arrays
  it was entered with, where `d` is read off its two column arrays. Those hold the normalising factor of the degree
  kernel's output, which is the row sums of `A`; and `A`, `x`, `W` are still the launch contents. So the result is
  the layer's output in the grouping that scales the rows of `x` first (`Cert.Gcn.Gker`), with no condition on the inputs:
  every step is a re-association of sums in a commutative monoid or a rewriting of equal arrays.
-/
import proofs.«112918_j11965778887252_1_alg».proof.Proof.Val.Entry
import proofs.«112918_j11965778887252_1_alg».proof.Proof.Val.Value0
import proofs.«112918_j11965778887252_1_alg».proof.Proof.Val.Value1
import proofs.«112918_j11965778887252_1_alg».proof.Proof.Spec

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The normalising factor of the degree kernel's output entry at row `k` is the factor `dv` of the adjacency
    matrix as launched. -/
theorem dinv_deg (c : Dev nD) (k : Fin 16384) :
    Cert.Gcn.dinv (((dat0 (F := Ideal) (Ve0 m ρ) c).arrAt 1 cfg0.N : S16384x1.Idx → EReal) (ix2 k (0 : Fin 1)))
      = Cert.Gcn.dv (m ((c : Thread nD τ).loc main_arg1)) k := by
  rw [deg_array (Ve0 m ρ) c k]
  rfl

/-- The result array after the run is `Gker` of the three launch arrays. -/
theorem ker_value (c : Dev nD) :
    ((dat1 (F := Ideal) (Ve4 m ρ) c).arrAt 5 cfg1.N : S16384x64.Idx → EReal)
      = fun j => Cert.Gcn.Gker (m ((c : Thread nD τ).loc main_arg0)) (m ((c : Thread nD τ).loc main_arg1)) (m ((c : Thread nD τ).loc main_arg2)) (j 0) (j 1) := by
  funext j
  obtain ⟨i, o, rfl⟩ : ∃ (i : Fin 16384) (o : Fin 64), j = ix2 i o := ⟨j 0, j 1, eq_ix2 j⟩
  refine (out_array (Ve4 m ρ) c i o).trans ?_
  show _ = Cert.Gcn.Gker (m ((c : Thread nD τ).loc main_arg0)) (m ((c : Thread nD τ).loc main_arg1)) (m ((c : Thread nD τ).loc main_arg2)) i o
  have hX : aX (Ve4 (F := Ideal) m ρ) c = m ((c : Thread nD τ).loc main_arg0) := entry_arg0 m ρ c
  have hA : aA (Ve4 (F := Ideal) m ρ) c = m ((c : Thread nD τ).loc main_arg1) := entry_arg1 m ρ c
  have hW : aW (Ve4 (F := Ideal) m ρ) c = m ((c : Thread nD τ).loc main_arg2) := entry_arg2 m ρ c
  have hDr : ∀ r : Fin 16384, aDr (Ve4 (F := Ideal) m ρ) c (ix2 r (0 : Fin 1)) = Cert.Gcn.dv (m ((c : Thread nD τ).loc main_arg1)) r :=
    fun r => (entry_v6 m ρ c r).trans (dinv_deg m ρ c r)
  have hDc : ∀ r : Fin 16384, aDc (Ve4 (F := Ideal) m ρ) c (ix2 r (0 : Fin 1)) = Cert.Gcn.dv (m ((c : Thread nD τ).loc main_arg1)) r :=
    fun r => (entry_v7 m ρ c r).trans (dinv_deg m ρ c r)
  unfold Cert.Gcn.Gker
  rw [hX, hA, hW, hDr i]
  simp only [hDc]

end Cert.KernelIdeal.Val

end
-- ==== Proof.RefValue.lean ====
/-
  The reference program's result, read entry by entry, is the graph-convolution layer `Gref` of the
  specification: the row sums of the adjacency matrix give the degrees, the select on the comparison gives the
  normalising factors, the two broadcasts and the two entrywise products give the matrix scaled entry by entry
  as `(dv i · A i k) · dv k`, and the two matrix products are the two sums of `Gref`.
-/
import proofs.«112918_j11965778887252_1_alg».proof.Proof.Gen.ReferenceIdeal.Read
import proofs.«112918_j11965778887252_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.StableHlo Cert.Gcn

/-! ## Index equations: the composed index functions at an index built from its coordinates -/

theorem idx_v0_at (i k : Fin 16384) : idx_main_v0 (ix1 i) k = ix2 i k :=
  funext fun a => Fin.ext (by match a with | ⟨0, _⟩ => rfl | ⟨1, _⟩ => rfl)

theorem idx_v5_v6_at (i k : Fin 16384) : idx_main_v5 (idx_main_v6 (ix2 i k)) = ix1 i :=
  funext fun a => Fin.ext (by match a with | ⟨0, _⟩ => rfl)

theorem idx_v8_v9_at (i k : Fin 16384) : idx_main_v8 (idx_main_v9 (ix2 i k)) = ix1 k :=
  funext fun a => Fin.ext (by match a with | ⟨0, _⟩ => rfl)

theorem lidx_v11_at (i : Fin 16384) (f : Fin 64) (k : Fin 16384) : lidx_main_v11 (ix2 i f) k = ix2 i k :=
  funext fun a => Fin.ext (by match a with | ⟨0, _⟩ => rfl | ⟨1, _⟩ => rfl)

theorem ridx_v11_at (i : Fin 16384) (f : Fin 64) (k : Fin 16384) : ridx_main_v11 (ix2 i f) k = ix2 k f :=
  funext fun a => Fin.ext (by match a with | ⟨0, _⟩ => rfl | ⟨1, _⟩ => rfl)

theorem lidx_v12_at (i : Fin 16384) (o : Fin 64) (f : Fin 64) : lidx_main_v12 (ix2 i o) f = ix2 i f :=
  funext fun a => Fin.ext (by match a with | ⟨0, _⟩ => rfl | ⟨1, _⟩ => rfl)

theorem ridx_v12_at (i : Fin 16384) (o : Fin 64) (f : Fin 64) : ridx_main_v12 (ix2 i o) f = ix2 f o :=
  funext fun a => Fin.ext (by match a with | ⟨0, _⟩ => rfl | ⟨1, _⟩ => rfl)

/-! ## The stages, from the degrees up -/

/-- The row sum: the reduction starts from the zero literal, so entry `i` is the degree of node `i`. -/
theorem deg_at (x1 : (⟨S16384x16384, .f32⟩ : BufTy).Contents (Elt Ideal)) (i : Fin 16384) :
    val_main_v0 (F := Ideal) x1 (ix1 i) = deg x1 i := by
  rw [val_main_v0_apply, val_main_cst_apply, Ideal.ofBits_def, Ideal.ofBits_zero_f32, zero_add]
  unfold deg
  exact Finset.sum_congr rfl fun k _ => congrArg x1 (idx_v0_at i k)

/-- The select on `0 < deg` between the inverse square root and the zero literal is the normalising factor. -/
theorem dv_at (x1 : (⟨S16384x16384, .f32⟩ : BufTy).Contents (Elt Ideal)) (i : Fin 16384) :
    val_main_v4 (F := Ideal) x1 (ix1 i) = dv x1 i := by
  rw [val_main_v4_apply, val_main_v2_apply, val_main_v3_apply, val_main_call0_v1_apply, val_main_call0_v0_apply,
    val_main_cst_1_apply, val_main_v1_apply, val_main_cst_0_apply, deg_at, Ideal.ofBits_def, Ideal.ofBits_zero_f32,
    Ideal.cmpf_def, Ideal.hostUnary_rsqrt_def]
  unfold dv dinv
  rfl

/-- The adjacency matrix scaled entry by entry: row factor times entry, times column factor. -/
theorem nadj_at (x1 : (⟨S16384x16384, .f32⟩ : BufTy).Contents (Elt Ideal)) (i k : Fin 16384) :
    val_main_v10 (F := Ideal) x1 (ix2 i k) = (dv x1 i * x1 (ix2 i k)) * dv x1 k := by
  rw [val_main_v10_apply, val_main_v7_apply, val_main_v6_apply, val_main_v5_apply, val_main_v9_apply,
    val_main_v8_apply, idx_v5_v6_at, idx_v8_v9_at, dv_at, dv_at]
  rfl

/-- The first matrix product: the scaled adjacency matrix times the features. -/
theorem v11_at (x0 : (⟨S16384x64, .f32⟩ : BufTy).Contents (Elt Ideal))
    (x1 : (⟨S16384x16384, .f32⟩ : BufTy).Contents (Elt Ideal)) (i : Fin 16384) (f : Fin 64) :
    val_main_v11 (F := Ideal) x0 x1 (ix2 i f)
      = ∑ k : Fin 16384, ((dv x1 i * x1 (ix2 i k)) * dv x1 k) * x0 (ix2 k f) := by
  rw [val_main_v11_apply]
  refine Finset.sum_congr rfl fun k _ => ?_
  rw [lidx_v11_at, ridx_v11_at, nadj_at]

/-- The reference's result at row `i`, column `o` is the layer's output there. -/
theorem ref_at (x0 : (⟨S16384x64, .f32⟩ : BufTy).Contents (Elt Ideal))
    (x1 : (⟨S16384x16384, .f32⟩ : BufTy).Contents (Elt Ideal))
    (x2 : (⟨S64x64, .f32⟩ : BufTy).Contents (Elt Ideal)) (i : Fin 16384) (o : Fin 64) :
    Cert.ReferenceIdeal.Read.val_main_v12 (F := Ideal) x0 x1 x2 (ValueIdx.ix2 i o) = Cert.Gcn.Gref x0 x1 x2 i o := by
  rw [val_main_v12_apply]
  unfold Gref
  refine Finset.sum_congr rfl fun f _ => ?_
  rw [lidx_v12_at, ridx_v12_at, v11_at]

/-- The reference's result, as a function of the index, is the layer's output at the index's coordinates. -/
theorem ref_result (x0 : (⟨S16384x64, .f32⟩ : BufTy).Contents (Elt Ideal))
    (x1 : (⟨S16384x16384, .f32⟩ : BufTy).Contents (Elt Ideal))
    (x2 : (⟨S64x64, .f32⟩ : BufTy).Contents (Elt Ideal)) :
    Cert.ReferenceIdeal.Read.val_main_v12 (F := Ideal) x0 x1 x2 = fun j => Cert.Gcn.Gref x0 x1 x2 (j 0) (j 1) := by
  funext j
  obtain ⟨i, o, rfl⟩ : ∃ (i : Fin 16384) (o : Fin 64), j = ix2 i o := ⟨j 0, j 1, eq_ix2 j⟩
  exact ref_at x0 x1 x2 i o

end Cert.ReferenceIdeal.RefValue

end
-- ==== Proof.SpecLaw.lean ====
/-
  The two groupings of the graph-convolution layer agree when the adjacency matrix and the features are real.

  With every entry of `A` real, each degree is a finite sum of reals, hence real, and each normalising
  factor is real (the reciprocal square root of a positive real, or zero). For a fixed feature column `f`
  the inner sums are then sums of real numbers, and
    ∑ k, ((d_i · A_ik) · d_k) · x_kf = (∑ k, A_ik · (x_kf · d_k)) · d_i
  by commutativity and associativity term by term and distributivity of the factor `d_i` over the sum.
  The outer sum over `f` against `W` is the same on both sides, so `W` needs no hypothesis.
-/
import proofs.«112918_j11965778887252_1_alg».proof.Proof.Spec

noncomputable section

open scoped BigOperators

namespace Cert.Gcn

open Idealize.ShloMosaic Idealize.ShloMosaic.ValueIdx

/-- The inclusion of the reals in the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The normalising factor of a real degree is real. -/
theorem dinv_coe (r : ℝ) : ∃ q : ℝ, dinv (r : EReal) = (q : EReal) := by
  unfold dinv
  by_cases h : 0 < r
  · refine ⟨(Real.sqrt r)⁻¹, ?_⟩
    have hc : Ideal.cmp .ogt (r : EReal) 0 = 1#1 := by
      simp [Ideal.cmp, h]
    rw [hc]
    simp [Scalar.select, Ideal.rsqrt_coe, not_lt.mpr h.le, h.ne']
  · refine ⟨0, ?_⟩
    have hc : Ideal.cmp .ogt (r : EReal) 0 = 0#1 := by
      simp [Ideal.cmp, h]
    rw [hc]
    simp [Scalar.select]

/-- A row sum of real entries is real. -/
theorem deg_coe (A : (⟨2, ![16384, 16384]⟩ : Shape).Idx → EReal)
    (hA : ∀ j, ∃ r : ℝ, A j = (r : EReal)) (i : Fin 16384) : ∃ q : ℝ, deg A i = (q : EReal) := by
  choose rA hrA using hA
  refine ⟨∑ k : Fin 16384, rA (ix2 i k), ?_⟩
  unfold deg
  rw [coe_sum]
  exact Finset.sum_congr rfl (fun k _ => hrA _)

/-- The normalising factor of a node of a real adjacency matrix is real. -/
theorem dv_coe (A : (⟨2, ![16384, 16384]⟩ : Shape).Idx → EReal)
    (hA : ∀ j, ∃ r : ℝ, A j = (r : EReal)) (i : Fin 16384) : ∃ q : ℝ, dv A i = (q : EReal) := by
  obtain ⟨q, hq⟩ := deg_coe A hA i
  unfold dv
  rw [hq]
  exact dinv_coe q

/-- Scaling the adjacency matrix entry by entry, or scaling the rows of `x` before and the rows of the
    product after, gives the same layer output when `A` and `x` are real. -/
theorem Gref_eq_Gker (x : (⟨2, ![16384, 64]⟩ : Shape).Idx → EReal)
    (A : (⟨2, ![16384, 16384]⟩ : Shape).Idx → EReal) (W : (⟨2, ![64, 64]⟩ : Shape).Idx → EReal)
    (hx : ∀ j, ∃ r : ℝ, x j = (r : EReal)) (hA : ∀ j, ∃ r : ℝ, A j = (r : EReal))
    (i : Fin 16384) (o : Fin 64) : Gref x A W i o = Gker x A W i o := by
  have hd := dv_coe A hA
  choose rx hrx using hx
  choose rA hrA using hA
  choose d hd using hd
  have key : ∀ f : Fin 64,
      (∑ k : Fin 16384, ((dv A i * A (ix2 i k)) * dv A k) * x (ix2 k f))
        = (∑ k : Fin 16384, A (ix2 i k) * (x (ix2 k f) * dv A k)) * dv A i := by
    intro f
    simp only [hrx, hrA, hd, ← EReal.coe_mul, ← coe_sum]
    rw [EReal.coe_eq_coe_iff, Finset.sum_mul]
    exact Finset.sum_congr rfl (fun k _ => by ring)
  unfold Gref Gker
  exact Finset.sum_congr rfl (fun f _ => by rw [key f])

end Cert.Gcn

end
-- ==== Proof.Finite.lean ====
/-
  What the precondition says of the inputs: every entry of the three argument arrays is a real number.

  The precondition computes, for each array, the conjunction over all entries of the test `|v| < +∞`,
  and joins the three with `and`. When the result is 1 each of the three conjunctions is 1, so every
  single test is 1. The bit pattern `0x7F800000` denotes `+∞`, and `|v| = max v (-v)` is below `+∞`
  only when `v` is neither `+∞` nor `-∞` (for `-∞` the maximum is `+∞`), that is, when `v` is real.
-/
import proofs.«112918_j11965778887252_1_alg».proof.Pre_finite_inputs
import Idealize.ShloMosaic.Lib.ReduceAll
import Idealize.ShloMosaic.Lib.ValueIdx
import Idealize.ShloMosaic.PureOps.Ideal.Laws
import proofs.«112918_j11965778887252_1_alg».proof.Defs

noncomputable section

namespace Cert.Gcn

open Idealize.ShloMosaic Idealize.ShloMosaic.ValueIdx Cert.Pre_finite_inputs

/-- The rank-0 shape has one index. -/
instance subsingleton_scalarIdx : Subsingleton S_.Idx := ⟨fun a b => funext fun d => d.elim0⟩

/-- An extended real whose absolute value is below the value of the pattern `0x7F800000` (`+∞`) is real. -/
theorem real_of_abs_lt_inf (a : EReal)
    (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  induction a using EReal.rec with
  | bot => simp [Ideal.cmp] at h
  | coe r => exact ⟨r, rfl⟩
  | top => simp [Ideal.cmp] at h

/-- If the precondition's function is all ones on `x`, `A`, `W`, every entry of each is real. -/
theorem finite_of_pre [Cert.Pre_finite_inputs.Facts] (x : FVec Ideal S16384x64 .f32)
    (A : FVec Ideal S16384x16384 .f32) (W : FVec Ideal S64x64 .f32)
    (h : Cert.Pre_finite_inputs.fn (F := Ideal) x A W = fun _ => 1#1) :
    (∀ j, ∃ r : ℝ, x j = (r : EReal)) ∧ (∀ j, ∃ r : ℝ, A j = (r : EReal)) ∧ (∀ j, ∃ r : ℝ, W j = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun j => ?_, fun j => ?_, fun j => ?_⟩
  · exact real_of_abs_lt_inf (x j) (Host.reduce_andi_all _ _ _ _ _ h1 j)
  · exact real_of_abs_lt_inf (A j) (Host.reduce_andi_all _ _ _ _ _ h2 j)
  · exact real_of_abs_lt_inf (W j) (Host.reduce_andi_all _ _ _ _ _ h3 j)

open Idealize.SL.Sem in
/-- The same, read off the memory a run of the idealized kernel starts from. -/
theorem finite_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal)) :=
  finite_of_pre _ _ _ (hpre c)

end Cert.Gcn

end
-- ==== Proof.lean ====
/-
  One graph-convolution layer, `out = (D^(-1/2) A D^(-1/2)) x W`, computed by two kernels with a few host lines between
  them, against the same layer written with array operations; `D` is the diagonal matrix of the row sums of `A`.

  The first kernel sums each row of `A` block by block into the degree vector. The host lines turn a degree `s` into
  `s^(-1/2)` when `s > 0` and `0` otherwise. The second kernel accumulates, block by block,
  `∑ k, A i k * (x k f * d k)`, scales row `i` of the total by `d i` and multiplies by `W`. The reference scales `A`
  entry by entry, `(d i * A i k) * d k`, and then multiplies by `x` and by `W`.

  Over the extended reals the kernel's result is the layer in the first grouping whatever the inputs (sums are
  re-associated in a commutative monoid; the changes of float format are the identity). The reference's is the layer
  in the second grouping. The two groupings agree when every entry of `A` and `x` is a real number, because then the
  degrees and the factors `d` are real and `d i` moves across the sum over `k` by distributivity: this is where the
  precondition that the inputs are finite is used.

  Each program also runs to the end without a fault and leaves its arguments unchanged: for the two kernel programs
  this is shown once for any float values, region by region — the body at each grid point in each of its three cases
  (first, middle, last column band), the accumulator carried from point to point — and read at the word-level values
  and at the extended reals; for the reference it is its run with the result dropped. The idealized kernel program is
  the kernel program's own text read over the extended reals: nothing was rewritten, so there is nothing to preserve.
-/
import proofs.«112918_j11965778887252_1_alg».proof.Defs
import proofs.«112918_j11965778887252_1_alg».proof.Proof.Gen.Kernel
import proofs.«112918_j11965778887252_1_alg».proof.Proof.Gen.KernelIdeal
import proofs.«112918_j11965778887252_1_alg».proof.Proof.Gen.ReferenceIdeal
import proofs.«112918_j11965778887252_1_alg».proof.Proof.Gen.ReferenceIdeal.Run
import proofs.«112918_j11965778887252_1_alg».proof.Proof.Gen.ReferenceIdeal.Read
import proofs.«112918_j11965778887252_1_alg».proof.Proof.Gen.Pre_finite_inputs
import proofs.«112918_j11965778887252_1_alg».proof.Proof.HandKernel.Frame
import proofs.«112918_j11965778887252_1_alg».proof.Proof.HandKernelIdeal.Frame
import proofs.«112918_j11965778887252_1_alg».proof.Proof.Val.KerValue
import proofs.«112918_j11965778887252_1_alg».proof.Proof.RefValue
import proofs.«112918_j11965778887252_1_alg».proof.Proof.SpecLaw
import proofs.«112918_j11965778887252_1_alg».proof.Proof.Finite
import Idealize.ShloMosaic.Adequacy
import Idealize.ShloMosaic.Init

noncomputable section

namespace Cert.Proof

open Idealize.ShloMosaic Idealize.ShloMosaic.TcCoe Idealize.SL.Sem

/-- The kernel program at the word-level values runs to the end and leaves its arguments unchanged. -/
theorem frame_kernel : Cert.frame_Kernel := fun m ρ _ => Cert.Kernel.Hand.frame (F := Bits) m ρ

/-- The same program read over the extended reals does too. -/
theorem frame_kernelIdeal : Cert.frame_KernelIdeal := fun m ρ _ => Cert.KernelIdeal.Hand.frame (F := Ideal) m ρ

/-- The reference runs to the end and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel program was rewritten for the reading over the extended reals. -/
theorem preserves : Cert.preserves_Kernel_KernelIdeal := trivial

/-- From memories that agree on the arguments, both programs end with the layer's output: the kernel's in the grouping
    that scales the rows of `x` first, the reference's in the grouping that scales `A` first, equal because the
    inputs are finite. -/
theorem algebraic : Cert.algebraic_KernelIdeal_ReferenceIdeal := by
  intro m ρ m' ρ' hpre hagree
  refine ⟨fun c j => Cert.Gcn.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (j 0) (j 1), ?_, ?_⟩
  · exact (θ_run Cert.KernelIdeal.defs _ _).mono
      (fun _ h c => ⟨(h c).1.trans (Cert.KernelIdeal.Val.ker_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.ref_result,
      (hagree c).1, (hagree c).2.1, (hagree c).2.2]
    obtain ⟨hx, hA, -⟩ := Cert.Gcn.finite_of_Pre_KernelIdeal m hpre c
    funext j
    exact Cert.Gcn.Gref_eq_Gker _ _ _ hx hA (j 0) (j 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
